-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S16x256 .f32 := Host.absf main_arg9
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_v48 main_v49 main_v50

def fn_part1 {F : FTy → Type} [FloatOps F] (main_arg5 : FVec F S128x256 .f32) (main_arg6 : FVec F S256 .f32) (main_arg7 : FVec F S256x256 .f32) (main_arg8 : FVec F S256 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x16 .f32) (main_arg3 : FVec F S16x128 .f32) (main_arg4 : FVec F S128 .f32) (main_arg5 : FVec F S128x256 .f32) (main_arg6 : FVec F S256 .f32) (main_arg7 : FVec F S256x256 .f32) (main_arg8 : FVec F S256 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S1x800000 : Shape := ⟨2, ![1, 800000]⟩
abbrev S800000 : Shape := ⟨1, ![800000]⟩
abbrev S1x128 : Shape := ⟨2, ![1, 128]⟩
abbrev S800000x128 : Shape := ⟨2, ![800000, 128]⟩
abbrev S20000x16 : Shape := ⟨2, ![20000, 16]⟩
abbrev S20000x128 : Shape := ⟨2, ![20000, 128]⟩
abbrev S_ : Shape := ⟨0, ![]⟩
abbrev S800000x1 : Shape := ⟨2, ![800000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S20000x256 : Shape := ⟨2, ![20000, 256]⟩

abbrev nBuf : Space → Nat
  | .hbm => 63
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S16x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S16x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S1x128, .f32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x256, .f32⟩
  | .hbm, ⟨39, _⟩ => ⟨S1x256, .f32⟩
  | .hbm, ⟨40, _⟩ => ⟨S50000x256, .f32⟩
  | .hbm, ⟨41, _⟩ => ⟨S1x256, .f32⟩
  | .hbm, ⟨42, _⟩ => ⟨S800000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S_, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S1x256, .f32⟩
  | .hbm, ⟨61, _⟩ => ⟨S1x256, .f32⟩
  | .hbm, ⟨62, _⟩ => ⟨S50000x256, .f32⟩
  | .local _ .vmem, ⟨0, _⟩ => ⟨S20000x16, .f32⟩
  | .local _ .vmem, ⟨1, _⟩ => ⟨S20000x16, .f32⟩
  | .local _ .vmem, ⟨2, _⟩ => ⟨S16x128, .f32⟩
  | .local _ .vmem, ⟨3, _⟩ => ⟨S1x128, .f32⟩
  | .local _ .vmem, ⟨4, _⟩ => ⟨S20000x128, .f32⟩
  | .local _ .vmem, ⟨5, _⟩ => ⟨S20000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S20000x16, .f32⟩
  | .local _ .vmem, ⟨17, _⟩ => ⟨S20000x16, .f32⟩
  | .local _ .vmem, ⟨18, _⟩ => ⟨S16x256, .f32⟩
  | .local _ .vmem, ⟨19, _⟩ => ⟨S1x256, .f32⟩
  | .local _ .vmem, ⟨20, _⟩ => ⟨S20000x256, .f32⟩
  | .local _ .vmem, ⟨21, _⟩ => ⟨S20000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_cst : Ref sig .tc := ⟨.hbm, 53, rfl⟩
abbrev main_call1_v0 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S20000x16_S20000x16_0_0 : ∀ a, (![0, 0] : Fin 2 → Nat) a + S20000x16.size a ≤ S20000x16.size a
  h_S20000x16 : 0 < S20000x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S20000x128_S20000x128_0_0 : ∀ a, (![0, 0] : Fin 2 → Nat) a + S20000x128.size a ≤ S20000x128.size a
  h_S20000x128 : 0 < S20000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  inb_S16x256_S16x256_0_0 : ∀ a, (![0, 0] : Fin 2 → Nat) a + S16x256.size a ≤ S16x256.size a
  h_S16x256 : 0 < S16x256.numel
  broadcasts_S1x256_S20000x256 : S1x256.Broadcasts S20000x256
  inb_S20000x256_S20000x256_0_0 : ∀ a, (![0, 0] : Fin 2 → Nat) a + S20000x256.size a ≤ S20000x256.size a
  h_S20000x256 : 0 < S20000x256.numel
  bcast_S_S800000x256 : S_.BroadcastsInDim S800000x256 (![] : Fin 0 → Fin S800000x256.rank)
  bcast_S_S50000x256 : S_.BroadcastsInDim S50000x256 (![] : Fin 0 → Fin S50000x256.rank)
  shapeCasts_S5000x256_S5000x256 : S5000x256.ShapeCasts S5000x256
  dot_S20000x16_S16x128_S20000x128_1_0_0_1_n_n_wf : DotDims.WF S20000x16 S16x128 S20000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S20000x16_S16x256_S20000x256_1_0_0_1_n_n_wf : DotDims.WF S20000x16 S16x256 S20000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x16.size a ≤ S800000x16.size a
  hwx0_0 : ∀ i : grid0.Coords, EltTy.bits .f32 = 32 ∨ (Rect.block (s := S800000x16) S20000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x128.size a ≤ S800000x128.size a
  hwx0_3 : ∀ i : grid0.Coords, EltTy.bits .f32 = 32 ∨ (Rect.block (s := S800000x128) S20000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S800000x16.size a
  hwx2_0 : ∀ i : grid2.Coords, EltTy.bits .f32 = 32 ∨ (Rect.block (s := S800000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x256.size a ≤ S16x256.size a
  hwx2_1 : ∀ i : grid2.Coords, EltTy.bits .f32 = 32 ∨ (Rect.block (s := S16x256) S16x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x256.size a ≤ S800000x256.size a
  hwx2_3 : ∀ i : grid2.Coords, EltTy.bits .f32 = 32 ∨ (Rect.block (s := S800000x256) S20000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x256.size a ≤ S50000x256.size a
  hwx3_6 : ∀ i : grid3.Coords, EltTy.bits .f32 = 32 ∨ (Rect.block (s := S50000x256) S5000x256.size (cc3_transform_6 i) (hinb3_6 i)).WholeWords (EltTy.packing .f32)

variable [Facts₀]

def dot_S20000x16_S16x128_S20000x128_1_0_0_1_n_n : DotDims S20000x16 S16x128 S20000x128 where
  lhsContracting := [1]
  rhsContracting := [0]
  lhsNonContracting := [0]
  rhsNonContracting := [1]
  lhsBatch := []
  rhsBatch := []
  wf := dot_S20000x16_S16x128_S20000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S20000x16_S16x256_S20000x256_1_0_0_1_n_n : DotDims S20000x16 S16x256 S20000x256 where
  lhsContracting := [1]
  rhsContracting := [0]
  lhsNonContracting := [0]
  rhsNonContracting := [1]
  lhsBatch := []
  rhsBatch := []
  wf := dot_S20000x16_S16x256_S20000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg2) S20000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S20000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S16x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S20000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v37) S5000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S16x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S16x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S800000x256, .f32⟩
  | .hbm, ⟨65, _⟩ => ⟨S800000x256, .f32⟩
  | .hbm, ⟨66, _⟩ => ⟨S1x256, .f32⟩
  | .hbm, ⟨67, _⟩ => ⟨S800000x256, .f32⟩
  | .hbm, ⟨68, _⟩ => ⟨S800000x256, .f32⟩
  | .hbm, ⟨69, _⟩ => ⟨S_, .f32⟩
  | .hbm, ⟨70, _⟩ => ⟨S800000x256, .f32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_cst : Ref sig .tc := ⟨.hbm, 48, rfl⟩
abbrev main_call1_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_cst : Ref sig .tc := ⟨.hbm, 69, rfl⟩
abbrev main_call2_v0 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call3_cst : Ref sig .tc := ⟨.hbm, 84, rfl⟩
abbrev main_call3_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  gather_S50000x128_S800000x1_S800000x128_1_0_n_n_0_1_1128_wf : GatherDims.WF S50000x128 S800000x1 S800000x128 [1] [0] [] [0] [] 1 ![1, 128]
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  dot_S800000x16_S16x256_S800000x256_1_0_0_1_n_n_wf : DotDims.WF S800000x16 S16x256 S800000x256 [1] [0] [0] [1] [] []
  scatter_S50000x256_S800000x1_S800000x256_1_0_0_1_wf : ScatterDims.WF S50000x256 S800000x1 S800000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x16_S16x256_S800000x256_1_0_0_1_n_n : DotDims S800000x16 S16x256 S800000x256 where
  lhsContracting := [1]
  rhsContracting := [0]
  lhsNonContracting := [0]
  rhsNonContracting := [1]
  lhsBatch := []
  rhsBatch := []
  wf := dot_S800000x16_S16x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The idealized kernel's run with its result named.

  The program is four kernel regions among stretches of host operations. The contents of the TensorCore's
  buffers at each boundary between two segments are a fold through the program from the launch memory: a host
  stretch applies its operations, a region replaces its windows' arrays by what its write-backs leave. Every weakly
  fair execution terminates with every unscoped buffer at the last boundary's contents; read at the result's
  buffer this names the result, and read at an argument's buffer it is the launch contents.
-/
import proofs.«156893_j39032662786178_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result's buffer ends at the last boundary's contents and the
    fifteen argument arrays end as launched. -/
theorem run : θ_run defs (onTc (τ := τ) (main (F := F))) ⟨m, fun _ => 0, ρ⟩ (fun r => ∀ c : Dev nD,
      r.2.mem ((c.tc : Thread nD τ).loc main_v37) = W12 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v37 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.RunValue

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«156893_j39032662786178_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibGineLayer.lean ====
/-
  One message-passing layer with edge features, as one function of its inputs on the extended reals.

  A node's new features are a two-layer perceptron (a rectifier between the layers) of the node's own features
  plus the sum, over the edges that point at it, of the rectified sum of the source node's features and a linear
  transform of the edge's attributes. Which row an edge reads (the gather) and which row it adds to (the
  scatter-add) are carried as two functions `g` and `s` that are never opened: both programs apply the same ones.
  The linear transform and the perceptron are explicit finite sums, which is where the two programs differ in
  spelling: one adds the bias to the product before adding the gathered row, the other after; one multiplies the
  node's features by the constant one; one computes rows in blocks. On the extended reals addition is associative
  and one is the unit of multiplication, at the infinities too, so no finiteness is needed.

  Here: the functions `edgeLin` (attributes times weights plus a bias vector), `mlp` (two dense layers over
  RECTANGULAR weights [A, H] and [H, C], a rectifier between), `msg` and `layer`; and what a kernel's two bodies
  compute at an entry — `edge_body_apply` (a matrix product into the zero accumulator plus a one-row bias that is
  cast to its own shape and broadcast over the rows) and `node_body_apply` (two of those with a maximum against a
  splat zero between them). Each contraction record enters through the six facts of a plain matrix product. Built on
  the dense-layer lemma file, which it imports (and through it the plain-product one).
-/
import proofs.«156893_j39032662786178_2_alg».proof.Proof.LibDenseLayer
import Idealize.ShloMosaic.Lib.IdealHost

noncomputable section

namespace Cert.Lib.Gine

open Idealize.ShloMosaic Idealize.ShloMosaic.ValueIdx

/-- The edges' linear transform: attributes times weights plus the bias, entry by entry. -/
def edgeLin {E K D : ℕ} (a : (⟨2, ![E, K]⟩ : Shape).Idx → EReal) (w : (⟨2, ![K, D]⟩ : Shape).Idx → EReal)
    (b : (⟨1, ![D]⟩ : Shape).Idx → EReal) : (⟨2, ![E, D]⟩ : Shape).Idx → EReal := fun i =>
  (∑ k : Fin K, a (ix2 (i 0) k) * w (ix2 k (i 1))) + b (ix1 (i 1))

/-- Two dense layers with a rectifier between them, entry by entry. -/
def mlp {N A H C : ℕ} (h : (⟨2, ![N, A]⟩ : Shape).Idx → EReal) (w1 : (⟨2, ![A, H]⟩ : Shape).Idx → EReal)
    (b1 : (⟨1, ![H]⟩ : Shape).Idx → EReal) (w2 : (⟨2, ![H, C]⟩ : Shape).Idx → EReal)
    (b2 : (⟨1, ![C]⟩ : Shape).Idx → EReal) : (⟨2, ![N, C]⟩ : Shape).Idx → EReal := fun i =>
  (∑ j : Fin H, max ((∑ k : Fin A, h (ix2 (i 0) k) * w1 (ix2 k j)) + b1 (ix1 j)) 0 * w2 (ix2 j (i 1)))
    + b2 (ix1 (i 1))

/-- The messages: the rectified sum of the gathered source rows and the transformed edge attributes. -/
def msg {N E K D : ℕ} (g : ((⟨2, ![N, D]⟩ : Shape).Idx → EReal) → (⟨2, ![E, D]⟩ : Shape).Idx → EReal)
    (x : (⟨2, ![N, D]⟩ : Shape).Idx → EReal) (a : (⟨2, ![E, K]⟩ : Shape).Idx → EReal)
    (ew : (⟨2, ![K, D]⟩ : Shape).Idx → EReal) (eb : (⟨1, ![D]⟩ : Shape).Idx → EReal) :
    (⟨2, ![E, D]⟩ : Shape).Idx → EReal := fun e => max (g x e + edgeLin a ew eb e) 0

/-- The layer: the perceptron of the node's features plus its aggregated messages. -/
def layer {N E K D H C : ℕ} (g : ((⟨2, ![N, D]⟩ : Shape).Idx → EReal) → (⟨2, ![E, D]⟩ : Shape).Idx → EReal)
    (s : ((⟨2, ![E, D]⟩ : Shape).Idx → EReal) → (⟨2, ![N, D]⟩ : Shape).Idx → EReal)
    (x : (⟨2, ![N, D]⟩ : Shape).Idx → EReal) (a : (⟨2, ![E, K]⟩ : Shape).Idx → EReal)
    (ew : (⟨2, ![K, D]⟩ : Shape).Idx → EReal) (eb : (⟨1, ![D]⟩ : Shape).Idx → EReal)
    (w1 : (⟨2, ![D, H]⟩ : Shape).Idx → EReal) (b1 : (⟨1, ![H]⟩ : Shape).Idx → EReal)
    (w2 : (⟨2, ![H, C]⟩ : Shape).Idx → EReal) (b2 : (⟨1, ![C]⟩ : Shape).Idx → EReal) :
    (⟨2, ![N, C]⟩ : Shape).Idx → EReal :=
  mlp (fun i => x i + s (msg g x a ew eb) i) w1 b1 w2 b2

/-! ## What a kernel's two bodies compute, read at an entry -/

/-- A matrix product into the zero accumulator plus a one-row bias (cast to its own shape, then broadcast over
    the rows), read at `(p, c)`: the row of the left operand times the column of the right, plus the bias at `c`. -/
theorem edge_body_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (L : FVec Ideal ⟨2, ![M, K]⟩ .f32) (R : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul D none L R (constant (F := Ideal) ⟨2, ![M, N]⟩ .f32 0x00000000#32))
        (broadcastTo ⟨2, ![M, N]⟩ (shapeCast ⟨2, ![1, N]⟩ b hc) hb) (ix2 p c)
      = (∑ k : Fin K, L (ix2 p k) * R (ix2 k c)) + b (ix2 (0 : Fin 1) c) := by
  rw [shapeCast_self]
  exact Cert.Lib.DenseLayer.layer_apply D hr hs hl0 hl1 hr0 hr1 L R b hb p c

/-- Two such layers with a maximum against a splat zero between them, read at `(p, c)`. -/
theorem node_body_apply {M A H C : ℕ} (D1 : DotDims ⟨2, ![M, A]⟩ ⟨2, ![A, H]⟩ ⟨2, ![M, H]⟩)
    (D2 : DotDims ⟨2, ![M, H]⟩ ⟨2, ![H, C]⟩ ⟨2, ![M, C]⟩)
    (hr : D1.contr.rank = 1) (hs : D1.contr.size ⟨0, by omega⟩ = A)
    (hl0 : ∀ (j : (⟨2, ![M, H]⟩ : Shape).Idx) (q : D1.contr.Idx), (D1.lhsIdx j q 0).val = (j 0).val)
    (hl1 : ∀ (j : (⟨2, ![M, H]⟩ : Shape).Idx) (q : D1.contr.Idx), (D1.lhsIdx j q 1).val = (q ⟨0, by omega⟩).val)
    (hr0 : ∀ (j : (⟨2, ![M, H]⟩ : Shape).Idx) (q : D1.contr.Idx), (D1.rhsIdx j q 0).val = (q ⟨0, by omega⟩).val)
    (hr1 : ∀ (j : (⟨2, ![M, H]⟩ : Shape).Idx) (q : D1.contr.Idx), (D1.rhsIdx j q 1).val = (j 1).val)
    (gr : D2.contr.rank = 1) (gs : D2.contr.size ⟨0, by omega⟩ = H)
    (gl0 : ∀ (j : (⟨2, ![M, C]⟩ : Shape).Idx) (q : D2.contr.Idx), (D2.lhsIdx j q 0).val = (j 0).val)
    (gl1 : ∀ (j : (⟨2, ![M, C]⟩ : Shape).Idx) (q : D2.contr.Idx), (D2.lhsIdx j q 1).val = (q ⟨0, by omega⟩).val)
    (gr0 : ∀ (j : (⟨2, ![M, C]⟩ : Shape).Idx) (q : D2.contr.Idx), (D2.rhsIdx j q 0).val = (q ⟨0, by omega⟩).val)
    (gr1 : ∀ (j : (⟨2, ![M, C]⟩ : Shape).Idx) (q : D2.contr.Idx), (D2.rhsIdx j q 1).val = (j 1).val)
    (X : FVec Ideal ⟨2, ![M, A]⟩ .f32) (W1 : FVec Ideal ⟨2, ![A, H]⟩ .f32) (B1 : FVec Ideal ⟨2, ![1, H]⟩ .f32)
    (W2 : FVec Ideal ⟨2, ![H, C]⟩ .f32) (B2 : FVec Ideal ⟨2, ![1, C]⟩ .f32)
    (hc1 : (⟨2, ![1, H]⟩ : Shape).ShapeCasts ⟨2, ![1, H]⟩) (hb1 : (⟨2, ![1, H]⟩ : Shape).Broadcasts ⟨2, ![M, H]⟩)
    (hc2 : (⟨2, ![1, C]⟩ : Shape).ShapeCasts ⟨2, ![1, C]⟩) (hb2 : (⟨2, ![1, C]⟩ : Shape).Broadcasts ⟨2, ![M, C]⟩)
    (p : Fin M) (c : Fin C) :
    addf (matmul D2 none
        (maximumf (addf (matmul D1 none X W1 (constant (F := Ideal) ⟨2, ![M, H]⟩ .f32 0x00000000#32))
            (broadcastTo ⟨2, ![M, H]⟩ (shapeCast ⟨2, ![1, H]⟩ B1 hc1) hb1))
          (broadcast ⟨2, ![M, H]⟩ (Scalar.ofBits (F := Ideal) .f32 0x00000000#32)))
        W2 (constant (F := Ideal) ⟨2, ![M, C]⟩ .f32 0x00000000#32))
        (broadcastTo ⟨2, ![M, C]⟩ (shapeCast ⟨2, ![1, C]⟩ B2 hc2) hb2) (ix2 p c)
      = (∑ j : Fin H, max ((∑ k : Fin A, X (ix2 p k) * W1 (ix2 k j)) + B1 (ix2 (0 : Fin 1) j)) 0 * W2 (ix2 j c))
        + B2 (ix2 (0 : Fin 1) c) := by
  rw [edge_body_apply D2 gr gs gl0 gl1 gr0 gr1 _ W2 B2 hc2 hb2 p c]
  refine congrArg (· + B2 (ix2 (0 : Fin 1) c)) (Finset.sum_congr rfl fun j _ => congrArg (· * W2 (ix2 j c)) ?_)
  rw [maximumf_apply, edge_body_apply D1 hr hs hl0 hl1 hr0 hr1 X W1 B1 hc1 hb1 p j, broadcast_apply]
  exact congrArg (max _) Ideal.ofBits_zero_f32

end Cert.Lib.Gine

end
-- ==== Proof.Edge1.lean ====
/-
  The edge transform's region: every point multiplies a block of 20000 edges' attributes by the whole weight
  matrix and adds the one-row bias. A block's rows are rows of the attribute array and an entry of the product
  depends on the left operand through its row only, so point t writes rows 20000·t … 20000·t + 19999 of ONE
  function of the three arrays; the 40 blocks tile the result, which therefore ends holding that function.
-/
import proofs.«156893_j39032662786178_2_alg».proof.Proof.Gen.KernelIdeal.Frame
import proofs.«156893_j39032662786178_2_alg».proof.Proof.LibGineLayer
import Idealize.ShloMosaic.Lib.Pipeline.Value

set_option maxRecDepth 16384

noncomputable section

namespace Cert.KernelIdeal.Edge1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's result array ends holding: row i of the attributes times column j of the weights, plus
    the bias row's entry j. -/
def G (a : S800000x16.Idx → EReal) (w : S16x128.Idx → EReal) (b : S1x128.Idx → EReal) : S800000x128.Idx → EReal :=
  fun i => (∑ k : Fin 16, a (ix2 (i 0) k) * w (ix2 k (i 1))) + b (ix2 (0 : Fin 1) (i 1))

/-- The body's stored value at an entry of the block. -/
theorem pay_apply (x0 : FVec Ideal S20000x16 .f32) (x1 : FVec Ideal S16x128 .f32) (x2 : FVec Ideal S1x128 .f32)
    (p : Fin 20000) (q : Fin 128) :
    k0_pay1 (F := Ideal) x0 x1 x2 (ix2 p q) = (∑ k : Fin 16, x0 (ix2 p k) * x1 (ix2 k q)) + x2 (ix2 (0 : Fin 1) q) := by
  unfold k0_pay1
  exact Cert.Lib.Gine.edge_body_apply dot_S20000x16_S16x128_S20000x128_1_0_0_1_n_n rfl rfl
    (fun j q => by
      unfold DotDims.lhsIdx
      rw [dif_neg (show ¬(0 : Fin S20000x16.rank) ∈ dot_S20000x16_S16x128_S20000x128_1_0_0_1_n_n.lhsBatch by decide), dif_pos (show (0 : Fin S20000x16.rank) ∈ dot_S20000x16_S16x128_S20000x128_1_0_0_1_n_n.lhsNonContracting by decide)]
      rfl)
    (fun j q => dot_S20000x16_S16x128_S20000x128_1_0_0_1_n_n.lhsIdx_val_of_single rfl j q)
    (fun j q => dot_S20000x16_S16x128_S20000x128_1_0_0_1_n_n.rhsIdx_val_of_single rfl j q)
    (fun j q => by
      unfold DotDims.rhsIdx
      rw [dif_neg (show ¬(1 : Fin S16x128.rank) ∈ dot_S20000x16_S16x128_S20000x128_1_0_0_1_n_n.rhsBatch by decide), dif_pos (show (1 : Fin S16x128.rank) ∈ dot_S20000x16_S16x128_S20000x128_1_0_0_1_n_n.rhsNonContracting by decide)]
      rfl)
    x0 x1 x2 shapeCasts_S1x128_S1x128 broadcasts_S1x128_S20000x128 p q

/-- A block of the product is the matching rows of the whole product: stated over variables, the block's rows
    being rows of the array (`h0`) and the weights and bias being the whole arrays. -/
theorem block_eq (x0 : FVec Ideal S20000x16 .f32) (x1 : FVec Ideal S16x128 .f32) (x2 : FVec Ideal S1x128 .f32)
    (a : S800000x16.Idx → EReal) (j : S20000x128.Idx) (i : S800000x128.Idx)
    (hcol : (i 1).val = (j 1).val)
    (h0 : ∀ k : Fin 16, x0 (ix2 (j 0) k) = a (ix2 (i 0) k)) :
    k0_pay1 (F := Ideal) x0 x1 x2 j = G a x1 x2 i := by
  obtain ⟨p, q, rfl⟩ : ∃ (p : Fin 20000) (q : Fin 128), j = ix2 p q := ⟨j 0, j 1, eq_ix2 j⟩
  rw [pay_apply]
  unfold G
  have hq : (i 1 : Fin 128) = q := Fin.ext hcol
  rw [hq]
  exact congrArg (· + x2 (ix2 (0 : Fin 1) q)) (Finset.sum_congr rfl fun k _ => congrArg (· * x1 (ix2 k q)) (h0 k))

/-- The printed index maps over the grid: the attribute and result blocks move with the point, the weights and
    the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `G` of the three arrays as the region finds them. -/
theorem flushed_eq (c : Dev nD) (t : Fin cfg0.N) :
    (dat0 V c).flushed 3 t = ((cfg0.win 3).blk t).view.read (Elt Ideal)
      (G (V c main_arg2) (V c main_arg3) (V c main_v4)) := by
  show (cfg0.win 3).cut (grid0.coords t) ((dat0 V c).after 3 t) = _
  rw [after0_3]
  unfold out0_3
  rw [View.canon_unit_zero hz]
  simp only [View.ld_unit_zero (S := S20000x16) hz, View.ld_unit_zero (S := S16x128) hz, View.ld_unit_zero (S := S1x128) hz]
  obtain ⟨e00, e01, e10, e11, e20, e21, e30, e31⟩ := idx_facts t
  have hw : (iblk0 V c 1 t : FVec Ideal S16x128 .f32) = V c main_arg3 := by
    funext y
    show V c main_arg3 (((cfg0.win 1).blk t).view.emb y) = V c main_arg3 y
    refine congrArg (V c main_arg3) (funext fun a => Fin.ext ?_)
    match a with
    | ⟨0, _⟩ => show win0_1.index t (0 : Fin 2) * 16 + 1 * (y 0).val = (y 0).val; omega
    | ⟨1, _⟩ => show win0_1.index t (1 : Fin 2) * 128 + 1 * (y 1).val = (y 1).val; omega
  have hb : (iblk0 V c 2 t : FVec Ideal S1x128 .f32) = V c main_v4 := by
    funext y
    show V c main_v4 (((cfg0.win 2).blk t).view.emb y) = V c main_v4 y
    refine congrArg (V c main_v4) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  funext j
  show k0_pay1 (F := Ideal) (iblk0 V c 0 t) (iblk0 V c 1 t) (iblk0 V c 2 t) j
    = G (V c main_arg2) (V c main_arg3) (V c main_v4) (((cfg0.win 3).blk t).view.emb j)
  rw [hw, hb]
  refine block_eq (iblk0 V c 0 t) (V c main_arg3) (V c main_v4) (V c main_arg2) j (((cfg0.win 3).blk t).view.emb j) ?_ ?_
  · show win0_3.index t (1 : Fin 2) * 128 + 1 * (j 1).val = (j 1).val; omega
  · intro k
    show V c main_arg2 (((cfg0.win 0).blk t).view.emb (ix2 (j 0) k)) = V c main_arg2 (ix2 ((((cfg0.win 3).blk t).view.emb j) 0) k)
    refine congrArg (V c main_arg2) (funext fun a => Fin.ext ?_)
    match a with
    | ⟨0, _⟩ => show win0_0.index t (0 : Fin 2) * 20000 + 1 * (j 0).val = win0_3.index t (0 : Fin 2) * 20000 + 1 * (j 0).val; omega
    | ⟨1, _⟩ => show win0_0.index t (1 : Fin 2) * 16 + 1 * k.val = k.val; omega

/-- An index of the result is in point t's block iff each coordinate is in the block's range on its axis. -/
theorem mem_blk (t : Fin cfg0.N) (i : S800000x128.Idx) :
    i ∈ ((cfg0.win 3).blk t).view.set ↔ ∀ a : Fin 2, win0_3.index t a * S20000x128.size a ≤ (i a).val ∧ (i a).val < win0_3.index t a * S20000x128.size a + S20000x128.size a := by
  show i ∈ ((View.whole main_v5).slice (win0_3.rect t)).set ↔ _
  rw [View.set_slice_whole, Rect.mem_set_unit]
  exact Iff.rfl

/-- The blocks tile the result: row r lies in the block of point r / 20000. -/
theorem cover (i : S800000x128.Idx) : ∃ t : Fin cfg0.N, (cfg0.win 3).flush t = true ∧ i ∈ ((cfg0.win 3).blk t).view.set := by
  have hi0 : (i 0).val < 800000 := (i 0).isLt
  have hi1 : (i 1).val < 128 := (i 1).isLt
  have hN : cfg0.N = 40 := rfl
  let t : Fin cfg0.N := ⟨(i 0).val / 20000, by rw [hN]; omega⟩
  obtain ⟨e00, e01, e10, e11, e20, e21, e30, e31⟩ := idx_facts t
  have ht : t.val = (i 0).val / 20000 := rfl
  refine ⟨t, flush0_3 t, ?_⟩
  rw [mem_blk]
  intro a
  match a with
  | ⟨0, _⟩ => show win0_3.index t (0 : Fin 2) * 20000 ≤ (i 0).val ∧ (i 0).val < win0_3.index t (0 : Fin 2) * 20000 + 20000; omega
  | ⟨1, _⟩ => show win0_3.index t (1 : Fin 2) * 128 ≤ (i 1).val ∧ (i 1).val < win0_3.index t (1 : Fin 2) * 128 + 128; omega

/-- The result array after the region: `G` of the three arrays as the region finds them. -/
theorem final (c : Dev nD) : (dat0 V c).arrAt 3 cfg0.N = G (V c main_arg2) (V c main_arg3) (V c main_v4) :=
  (dat0 V c).arrAt_eq_of_cover 3 (G (V c main_arg2) (V c main_arg3) (V c main_v4)) (fun t _ => flushed_eq V c t) cover

end Cert.KernelIdeal.Edge1

end
-- ==== Proof.Edge2.lean ====
/-
  The edge transform's region: every point multiplies a block of 20000 edges' attributes by the whole weight
  matrix and adds the one-row bias. A block's rows are rows of the attribute array and an entry of the product
  depends on the left operand through its row only, so point t writes rows 20000·t … 20000·t + 19999 of ONE
  function of the three arrays; the 40 blocks tile the result, which therefore ends holding that function.
-/
import proofs.«156893_j39032662786178_2_alg».proof.Proof.Gen.KernelIdeal.Frame
import proofs.«156893_j39032662786178_2_alg».proof.Proof.LibGineLayer
import Idealize.ShloMosaic.Lib.Pipeline.Value

set_option maxRecDepth 16384

noncomputable section

namespace Cert.KernelIdeal.Edge2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's result array ends holding: row i of the attributes times column j of the weights, plus
    the bias row's entry j. -/
def G (a : S800000x16.Idx → EReal) (w : S16x256.Idx → EReal) (b : S1x256.Idx → EReal) : S800000x256.Idx → EReal :=
  fun i => (∑ k : Fin 16, a (ix2 (i 0) k) * w (ix2 k (i 1))) + b (ix2 (0 : Fin 1) (i 1))

/-- The body's stored value at an entry of the block. -/
theorem pay_apply (x0 : FVec Ideal S20000x16 .f32) (x1 : FVec Ideal S16x256 .f32) (x2 : FVec Ideal S1x256 .f32)
    (p : Fin 20000) (q : Fin 256) :
    k2_pay1 (F := Ideal) x0 x1 x2 (ix2 p q) = (∑ k : Fin 16, x0 (ix2 p k) * x1 (ix2 k q)) + x2 (ix2 (0 : Fin 1) q) := by
  unfold k2_pay1
  exact Cert.Lib.Gine.edge_body_apply dot_S20000x16_S16x256_S20000x256_1_0_0_1_n_n rfl rfl
    (fun j q => by
      unfold DotDims.lhsIdx
      rw [dif_neg (show ¬(0 : Fin S20000x16.rank) ∈ dot_S20000x16_S16x256_S20000x256_1_0_0_1_n_n.lhsBatch by decide), dif_pos (show (0 : Fin S20000x16.rank) ∈ dot_S20000x16_S16x256_S20000x256_1_0_0_1_n_n.lhsNonContracting by decide)]
      rfl)
    (fun j q => dot_S20000x16_S16x256_S20000x256_1_0_0_1_n_n.lhsIdx_val_of_single rfl j q)
    (fun j q => dot_S20000x16_S16x256_S20000x256_1_0_0_1_n_n.rhsIdx_val_of_single rfl j q)
    (fun j q => by
      unfold DotDims.rhsIdx
      rw [dif_neg (show ¬(1 : Fin S16x256.rank) ∈ dot_S20000x16_S16x256_S20000x256_1_0_0_1_n_n.rhsBatch by decide), dif_pos (show (1 : Fin S16x256.rank) ∈ dot_S20000x16_S16x256_S20000x256_1_0_0_1_n_n.rhsNonContracting by decide)]
      rfl)
    x0 x1 x2 shapeCasts_S1x256_S1x256 broadcasts_S1x256_S20000x256 p q

/-- A block of the product is the matching rows of the whole product: stated over variables, the block's rows
    being rows of the array (`h0`) and the weights and bias being the whole arrays. -/
theorem block_eq (x0 : FVec Ideal S20000x16 .f32) (x1 : FVec Ideal S16x256 .f32) (x2 : FVec Ideal S1x256 .f32)
    (a : S800000x16.Idx → EReal) (j : S20000x256.Idx) (i : S800000x256.Idx)
    (hcol : (i 1).val = (j 1).val)
    (h0 : ∀ k : Fin 16, x0 (ix2 (j 0) k) = a (ix2 (i 0) k)) :
    k2_pay1 (F := Ideal) x0 x1 x2 j = G a x1 x2 i := by
  obtain ⟨p, q, rfl⟩ : ∃ (p : Fin 20000) (q : Fin 256), j = ix2 p q := ⟨j 0, j 1, eq_ix2 j⟩
  rw [pay_apply]
  unfold G
  have hq : (i 1 : Fin 256) = q := Fin.ext hcol
  rw [hq]
  exact congrArg (· + x2 (ix2 (0 : Fin 1) q)) (Finset.sum_congr rfl fun k _ => congrArg (· * x1 (ix2 k q)) (h0 k))

/-- The printed index maps over the grid: the attribute and result blocks move with the point, the weights and
    the bias row stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of `G` of the three arrays as the region finds them. -/
theorem flushed_eq (c : Dev nD) (t : Fin cfg2.N) :
    (dat2 V c).flushed 3 t = ((cfg2.win 3).blk t).view.read (Elt Ideal)
      (G (V c main_arg2) (V c main_arg9) (V c main_v21)) := by
  show (cfg2.win 3).cut (grid2.coords t) ((dat2 V c).after 3 t) = _
  rw [after2_3]
  unfold out2_3
  rw [View.canon_unit_zero hz]
  simp only [View.ld_unit_zero (S := S20000x16) hz, View.ld_unit_zero (S := S16x256) hz, View.ld_unit_zero (S := S1x256) hz]
  obtain ⟨e00, e01, e10, e11, e20, e21, e30, e31⟩ := idx_facts t
  have hw : (iblk2 V c 1 t : FVec Ideal S16x256 .f32) = V c main_arg9 := by
    funext y
    show V c main_arg9 (((cfg2.win 1).blk t).view.emb y) = V c main_arg9 y
    refine congrArg (V c main_arg9) (funext fun a => Fin.ext ?_)
    match a with
    | ⟨0, _⟩ => show win2_1.index t (0 : Fin 2) * 16 + 1 * (y 0).val = (y 0).val; omega
    | ⟨1, _⟩ => show win2_1.index t (1 : Fin 2) * 256 + 1 * (y 1).val = (y 1).val; omega
  have hb : (iblk2 V c 2 t : FVec Ideal S1x256 .f32) = V c main_v21 := by
    funext y
    show V c main_v21 (((cfg2.win 2).blk t).view.emb y) = V c main_v21 y
    refine congrArg (V c main_v21) (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  funext j
  show k2_pay1 (F := Ideal) (iblk2 V c 0 t) (iblk2 V c 1 t) (iblk2 V c 2 t) j
    = G (V c main_arg2) (V c main_arg9) (V c main_v21) (((cfg2.win 3).blk t).view.emb j)
  rw [hw, hb]
  refine block_eq (iblk2 V c 0 t) (V c main_arg9) (V c main_v21) (V c main_arg2) j (((cfg2.win 3).blk t).view.emb j) ?_ ?_
  · show win2_3.index t (1 : Fin 2) * 256 + 1 * (j 1).val = (j 1).val; omega
  · intro k
    show V c main_arg2 (((cfg2.win 0).blk t).view.emb (ix2 (j 0) k)) = V c main_arg2 (ix2 ((((cfg2.win 3).blk t).view.emb j) 0) k)
    refine congrArg (V c main_arg2) (funext fun a => Fin.ext ?_)
    match a with
    | ⟨0, _⟩ => show win2_0.index t (0 : Fin 2) * 20000 + 1 * (j 0).val = win2_3.index t (0 : Fin 2) * 20000 + 1 * (j 0).val; omega
    | ⟨1, _⟩ => show win2_0.index t (1 : Fin 2) * 16 + 1 * k.val = k.val; omega

/-- An index of the result is in point t's block iff each coordinate is in the block's range on its axis. -/
theorem mem_blk (t : Fin cfg2.N) (i : S800000x256.Idx) :
    i ∈ ((cfg2.win 3).blk t).view.set ↔ ∀ a : Fin 2, win2_3.index t a * S20000x256.size a ≤ (i a).val ∧ (i a).val < win2_3.index t a * S20000x256.size a + S20000x256.size a := by
  show i ∈ ((View.whole main_v22).slice (win2_3.rect t)).set ↔ _
  rw [View.set_slice_whole, Rect.mem_set_unit]
  exact Iff.rfl

/-- The blocks tile the result: row r lies in the block of point r / 20000. -/
theorem cover (i : S800000x256.Idx) : ∃ t : Fin cfg2.N, (cfg2.win 3).flush t = true ∧ i ∈ ((cfg2.win 3).blk t).view.set := by
  have hi0 : (i 0).val < 800000 := (i 0).isLt
  have hi1 : (i 1).val < 256 := (i 1).isLt
  have hN : cfg2.N = 40 := rfl
  let t : Fin cfg2.N := ⟨(i 0).val / 20000, by rw [hN]; omega⟩
  obtain ⟨e00, e01, e10, e11, e20, e21, e30, e31⟩ := idx_facts t
  have ht : t.val = (i 0).val / 20000 := rfl
  refine ⟨t, flush2_3 t, ?_⟩
  rw [mem_blk]
  intro a
  match a with
  | ⟨0, _⟩ => show win2_3.index t (0 : Fin 2) * 20000 ≤ (i 0).val ∧ (i 0).val < win2_3.index t (0 : Fin 2) * 20000 + 20000; omega
  | ⟨1, _⟩ => show win2_3.index t (1 : Fin 2) * 256 ≤ (i 1).val ∧ (i 1).val < win2_3.index t (1 : Fin 2) * 256 + 256; omega

/-- The result array after the region: `G` of the three arrays as the region finds them. -/
theorem final (c : Dev nD) : (dat2 V c).arrAt 3 cfg2.N = G (V c main_arg2) (V c main_arg9) (V c main_v21) :=
  (dat2 V c).arrAt_eq_of_cover 3 (G (V c main_arg2) (V c main_arg9) (V c main_v21)) (fun t _ => flushed_eq V c t) cover

end Cert.KernelIdeal.Edge2

end
-- ==== Proof.Node1.lean ====
/-
  The node update's region: every point adds a block of 5000 nodes' features to the same rows of the aggregated
  messages and sends the sum through two dense layers with a rectifier between them, against the whole weight
  matrices and one-row biases. An entry of the result depends on the two row-blocked operands through its own
  row only, so point t writes rows 5000·t … 5000·t + 4999 of ONE function of the six arrays; the 10 blocks tile the
  result, which therefore ends holding that function.
-/
import proofs.«156893_j39032662786178_2_alg».proof.Proof.Gen.KernelIdeal.Frame
import proofs.«156893_j39032662786178_2_alg».proof.Proof.LibGineLayer
import Idealize.ShloMosaic.Lib.Pipeline.Value

set_option maxRecDepth 16384

noncomputable section

namespace Cert.KernelIdeal.Node1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's result array ends holding: two dense layers, a rectifier between them, of the node's
    features plus its aggregated messages. -/
def G (x : S50000x128.Idx → EReal) (g : S50000x128.Idx → EReal) (w1 : S128x256.Idx → EReal) (b1 : S1x256.Idx → EReal)
    (w2 : S256x256.Idx → EReal) (b2 : S1x256.Idx → EReal) : S50000x256.Idx → EReal := fun i =>
  (∑ j : Fin 256, max ((∑ k : Fin 128, (x (ix2 (i 0) k) + g (ix2 (i 0) k)) * w1 (ix2 k j)) + b1 (ix2 (0 : Fin 1) j)) 0
      * w2 (ix2 j (i 1))) + b2 (ix2 (0 : Fin 1) (i 1))

/-- The body's stored value at an entry of the block. -/
theorem pay_apply (x0 : FVec Ideal S5000x128 .f32) (x1 : FVec Ideal S5000x128 .f32) (x2 : FVec Ideal S128x256 .f32)
    (x3 : FVec Ideal S1x256 .f32) (x4 : FVec Ideal S256x256 .f32) (x5 : FVec Ideal S1x256 .f32) (p : Fin 5000) (q : Fin 256) :
    k1_pay1 (F := Ideal) x0 x1 x2 x3 x4 x5 (ix2 p q)
      = (∑ j : Fin 256, max ((∑ k : Fin 128, (x0 (ix2 p k) + x1 (ix2 p k)) * x2 (ix2 k j)) + x3 (ix2 (0 : Fin 1) j)) 0
          * x4 (ix2 j q)) + x5 (ix2 (0 : Fin 1) q) := by
  unfold k1_pay1
  refine (Cert.Lib.Gine.node_body_apply dot_S5000x128_S128x256_S5000x256_1_0_0_1_n_n dot_S5000x256_S256x256_S5000x256_1_0_0_1_n_n rfl rfl
    (fun j q => by
      unfold DotDims.lhsIdx
      rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
      rfl)
    (fun j q => dot_S5000x128_S128x256_S5000x256_1_0_0_1_n_n.lhsIdx_val_of_single rfl j q)
    (fun j q => dot_S5000x128_S128x256_S5000x256_1_0_0_1_n_n.rhsIdx_val_of_single rfl j q)
    (fun j q => by
      unfold DotDims.rhsIdx
      rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
      rfl)
    rfl rfl
    (fun j q => by
      unfold DotDims.lhsIdx
      rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
      rfl)
    (fun j q => dot_S5000x256_S256x256_S5000x256_1_0_0_1_n_n.lhsIdx_val_of_single rfl j q)
    (fun j q => dot_S5000x256_S256x256_S5000x256_1_0_0_1_n_n.rhsIdx_val_of_single rfl j q)
    (fun j q => by
      unfold DotDims.rhsIdx
      rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
      rfl)
    (addf x0 (shapeCast S5000x128 x1 shapeCasts_S5000x128_S5000x128)) x2 x3 x4 x5
    shapeCasts_S1x256_S1x256 broadcasts_S1x256_S5000x256 shapeCasts_S1x256_S1x256 broadcasts_S1x256_S5000x256 p q).trans ?_
  simp only [shapeCast_self]
  rfl

/-- A block of the result is the matching rows of the whole result: stated over variables, the two row-blocked
    operands' rows being rows of their arrays. -/
theorem block_eq (x0 : FVec Ideal S5000x128 .f32) (x1 : FVec Ideal S5000x128 .f32) (x2 : FVec Ideal S128x256 .f32)
    (x3 : FVec Ideal S1x256 .f32) (x4 : FVec Ideal S256x256 .f32) (x5 : FVec Ideal S1x256 .f32)
    (x : S50000x128.Idx → EReal) (g : S50000x128.Idx → EReal) (j : S5000x256.Idx) (i : S50000x256.Idx)
    (hcol : (i 1).val = (j 1).val)
    (h0 : ∀ k : Fin 128, x0 (ix2 (j 0) k) = x (ix2 (i 0) k))
    (h1 : ∀ k : Fin 128, x1 (ix2 (j 0) k) = g (ix2 (i 0) k)) :
    k1_pay1 (F := Ideal) x0 x1 x2 x3 x4 x5 j = G x g x2 x3 x4 x5 i := by
  obtain ⟨p, q, rfl⟩ : ∃ (p : Fin 5000) (q : Fin 256), j = ix2 p q := ⟨j 0, j 1, eq_ix2 j⟩
  rw [pay_apply]
  unfold G
  have hq : (i 1 : Fin 256) = q := Fin.ext hcol
  rw [hq]
  refine congrArg (· + x5 (ix2 (0 : Fin 1) q)) (Finset.sum_congr rfl fun jj _ => congrArg (· * x4 (ix2 jj q)) ?_)
  refine congrArg (fun s => max (s + x3 (ix2 (0 : Fin 1) jj)) 0) (Finset.sum_congr rfl fun k _ => ?_)
  exact congrArg (· * x2 (ix2 k jj)) (congrArg₂ (· + ·) (h0 k) (h1 k))

/-- The printed index maps over the grid: the two row-blocked operands and the result move with the point, the
    weights and the bias rows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of `G` of the six arrays as the region finds them. -/
theorem flushed_eq (c : Dev nD) (t : Fin cfg1.N) :
    (dat1 V c).flushed 6 t = ((cfg1.win 6).blk t).view.read (Elt Ideal)
      (G (V c main_arg0) (V c main_v17) (V c main_arg5) (V c main_v18) (V c main_arg7) (V c main_v19)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x256) hz, View.ld_unit_zero (S := S1x256) hz, View.ld_unit_zero (S := S256x256) hz]
  obtain ⟨e00, e01, e10, e11, e20, e21, e30, e31, e40, e41, e50, e51, e60, e61⟩ := idx_facts t
  have hw2 : (iblk1 V c 2 t : FVec Ideal S128x256 .f32) = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  have hw3 : (iblk1 V c 3 t : FVec Ideal S1x256 .f32) = V c main_v18 := by
    funext y
    show V c main_v18 (((cfg1.win 3).blk t).view.emb y) = V c main_v18 y
    refine congrArg (V c main_v18) (funext fun a => Fin.ext ?_)
    match a with
    | ⟨0, _⟩ => show win1_3.index t (0 : Fin 2) * 1 + 1 * (y 0).val = (y 0).val; omega
    | ⟨1, _⟩ => show win1_3.index t (1 : Fin 2) * 256 + 1 * (y 1).val = (y 1).val; omega
  have hw4 : (iblk1 V c 4 t : FVec Ideal S256x256 .f32) = V c main_arg7 := by
    funext y
    show V c main_arg7 (((cfg1.win 4).blk t).view.emb y) = V c main_arg7 y
    refine congrArg (V c main_arg7) (funext fun a => Fin.ext ?_)
    match a with
    | ⟨0, _⟩ => show win1_4.index t (0 : Fin 2) * 256 + 1 * (y 0).val = (y 0).val; omega
    | ⟨1, _⟩ => show win1_4.index t (1 : Fin 2) * 256 + 1 * (y 1).val = (y 1).val; omega
  have hw5 : (iblk1 V c 5 t : FVec Ideal S1x256 .f32) = V c main_v19 := by
    funext y
    show V c main_v19 (((cfg1.win 5).blk t).view.emb y) = V c main_v19 y
    refine congrArg (V c main_v19) (funext fun a => Fin.ext ?_)
    match a with
    | ⟨0, _⟩ => show win1_5.index t (0 : Fin 2) * 1 + 1 * (y 0).val = (y 0).val; omega
    | ⟨1, _⟩ => show win1_5.index t (1 : Fin 2) * 256 + 1 * (y 1).val = (y 1).val; omega
  funext j
  show k1_pay1 (F := Ideal) (iblk1 V c 0 t) (iblk1 V c 1 t) (iblk1 V c 2 t) (iblk1 V c 3 t) (iblk1 V c 4 t) (iblk1 V c 5 t) j
    = G (V c main_arg0) (V c main_v17) (V c main_arg5) (V c main_v18) (V c main_arg7) (V c main_v19) (((cfg1.win 6).blk t).view.emb j)
  rw [hw2, hw3, hw4, hw5]
  refine block_eq (iblk1 V c 0 t) (iblk1 V c 1 t) (V c main_arg5) (V c main_v18) (V c main_arg7) (V c main_v19) (V c main_arg0) (V c main_v17) j (((cfg1.win 6).blk t).view.emb j) ?_ ?_ ?_
  · show win1_6.index t (1 : Fin 2) * 256 + 1 * (j 1).val = (j 1).val; omega
  · intro k
    show V c main_arg0 (((cfg1.win 0).blk t).view.emb (ix2 (j 0) k)) = V c main_arg0 (ix2 ((((cfg1.win 6).blk t).view.emb j) 0) k)
    refine congrArg (V c main_arg0) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · intro k
    show V c main_v17 (((cfg1.win 1).blk t).view.emb (ix2 (j 0) k)) = V c main_v17 (ix2 ((((cfg1.win 6).blk t).view.emb j) 0) k)
    refine congrArg (V c main_v17) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega

/-- An index of the result is in point t's block iff each coordinate is in the block's range on its axis. -/
theorem mem_blk (t : Fin cfg1.N) (i : S50000x256.Idx) :
    i ∈ ((cfg1.win 6).blk t).view.set ↔ ∀ a : Fin 2, win1_6.index t a * S5000x256.size a ≤ (i a).val ∧ (i a).val < win1_6.index t a * S5000x256.size a + S5000x256.size a := by
  show i ∈ ((View.whole main_v20).slice (win1_6.rect t)).set ↔ _
  rw [View.set_slice_whole, Rect.mem_set_unit]
  exact Iff.rfl

/-- The blocks tile the result: row r lies in the block of point r / 5000. -/
theorem cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  have hN : cfg1.N = 10 := rfl
  let t : Fin cfg1.N := ⟨(i 0).val / 5000, by rw [hN]; omega⟩
  obtain ⟨e00, e01, e10, e11, e20, e21, e30, e31, e40, e41, e50, e51, e60, e61⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 256 ≤ (i 1).val ∧ (i 1).val < win1_6.index t (1 : Fin 2) * 256 + 256; omega

/-- The result array after the region: `G` of the six arrays as the region finds them. -/
theorem final (c : Dev nD) : (dat1 V c).arrAt 6 cfg1.N
    = G (V c main_arg0) (V c main_v17) (V c main_arg5) (V c main_v18) (V c main_arg7) (V c main_v19) :=
  (dat1 V c).arrAt_eq_of_cover 6 (G (V c main_arg0) (V c main_v17) (V c main_arg5) (V c main_v18) (V c main_arg7) (V c main_v19))
    (fun t _ => flushed_eq V c t) cover

end Cert.KernelIdeal.Node1

end
-- ==== Proof.Node2.lean ====
/-
  The node update's region: every point adds a block of 5000 nodes' features to the same rows of the aggregated
  messages and sends the sum through two dense layers with a rectifier between them, against the whole weight
  matrices and one-row biases. An entry of the result depends on the two row-blocked operands through its own
  row only, so point t writes rows 5000·t … 5000·t + 4999 of ONE function of the six arrays; the 10 blocks tile the
  result, which therefore ends holding that function.
-/
import proofs.«156893_j39032662786178_2_alg».proof.Proof.Gen.KernelIdeal.Frame
import proofs.«156893_j39032662786178_2_alg».proof.Proof.LibGineLayer
import Idealize.ShloMosaic.Lib.Pipeline.Value

set_option maxRecDepth 16384

noncomputable section

namespace Cert.KernelIdeal.Node2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's result array ends holding: two dense layers, a rectifier between them, of the node's
    features plus its aggregated messages. -/
def G (x : S50000x256.Idx → EReal) (g : S50000x256.Idx → EReal) (w1 : S256x256.Idx → EReal) (b1 : S1x256.Idx → EReal)
    (w2 : S256x256.Idx → EReal) (b2 : S1x256.Idx → EReal) : S50000x256.Idx → EReal := fun i =>
  (∑ j : Fin 256, max ((∑ k : Fin 256, (x (ix2 (i 0) k) + g (ix2 (i 0) k)) * w1 (ix2 k j)) + b1 (ix2 (0 : Fin 1) j)) 0
      * w2 (ix2 j (i 1))) + b2 (ix2 (0 : Fin 1) (i 1))

/-- The body's stored value at an entry of the block. -/
theorem pay_apply (x0 : FVec Ideal S5000x256 .f32) (x1 : FVec Ideal S5000x256 .f32) (x2 : FVec Ideal S256x256 .f32)
    (x3 : FVec Ideal S1x256 .f32) (x4 : FVec Ideal S256x256 .f32) (x5 : FVec Ideal S1x256 .f32) (p : Fin 5000) (q : Fin 256) :
    k3_pay1 (F := Ideal) x0 x1 x2 x3 x4 x5 (ix2 p q)
      = (∑ j : Fin 256, max ((∑ k : Fin 256, (x0 (ix2 p k) + x1 (ix2 p k)) * x2 (ix2 k j)) + x3 (ix2 (0 : Fin 1) j)) 0
          * x4 (ix2 j q)) + x5 (ix2 (0 : Fin 1) q) := by
  unfold k3_pay1
  refine (Cert.Lib.Gine.node_body_apply dot_S5000x256_S256x256_S5000x256_1_0_0_1_n_n dot_S5000x256_S256x256_S5000x256_1_0_0_1_n_n rfl rfl
    (fun j q => by
      unfold DotDims.lhsIdx
      rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
      rfl)
    (fun j q => dot_S5000x256_S256x256_S5000x256_1_0_0_1_n_n.lhsIdx_val_of_single rfl j q)
    (fun j q => dot_S5000x256_S256x256_S5000x256_1_0_0_1_n_n.rhsIdx_val_of_single rfl j q)
    (fun j q => by
      unfold DotDims.rhsIdx
      rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
      rfl)
    rfl rfl
    (fun j q => by
      unfold DotDims.lhsIdx
      rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
      rfl)
    (fun j q => dot_S5000x256_S256x256_S5000x256_1_0_0_1_n_n.lhsIdx_val_of_single rfl j q)
    (fun j q => dot_S5000x256_S256x256_S5000x256_1_0_0_1_n_n.rhsIdx_val_of_single rfl j q)
    (fun j q => by
      unfold DotDims.rhsIdx
      rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
      rfl)
    (addf (shapeCast S5000x256 x0 shapeCasts_S5000x256_S5000x256) (shapeCast S5000x256 x1 shapeCasts_S5000x256_S5000x256)) x2 x3 x4 x5
    shapeCasts_S1x256_S1x256 broadcasts_S1x256_S5000x256 shapeCasts_S1x256_S1x256 broadcasts_S1x256_S5000x256 p q).trans ?_
  simp only [shapeCast_self]
  rfl

/-- A block of the result is the matching rows of the whole result: stated over variables, the two row-blocked
    operands' rows being rows of their arrays. -/
theorem block_eq (x0 : FVec Ideal S5000x256 .f32) (x1 : FVec Ideal S5000x256 .f32) (x2 : FVec Ideal S256x256 .f32)
    (x3 : FVec Ideal S1x256 .f32) (x4 : FVec Ideal S256x256 .f32) (x5 : FVec Ideal S1x256 .f32)
    (x : S50000x256.Idx → EReal) (g : S50000x256.Idx → EReal) (j : S5000x256.Idx) (i : S50000x256.Idx)
    (hcol : (i 1).val = (j 1).val)
    (h0 : ∀ k : Fin 256, x0 (ix2 (j 0) k) = x (ix2 (i 0) k))
    (h1 : ∀ k : Fin 256, x1 (ix2 (j 0) k) = g (ix2 (i 0) k)) :
    k3_pay1 (F := Ideal) x0 x1 x2 x3 x4 x5 j = G x g x2 x3 x4 x5 i := by
  obtain ⟨p, q, rfl⟩ : ∃ (p : Fin 5000) (q : Fin 256), j = ix2 p q := ⟨j 0, j 1, eq_ix2 j⟩
  rw [pay_apply]
  unfold G
  have hq : (i 1 : Fin 256) = q := Fin.ext hcol
  rw [hq]
  refine congrArg (· + x5 (ix2 (0 : Fin 1) q)) (Finset.sum_congr rfl fun jj _ => congrArg (· * x4 (ix2 jj q)) ?_)
  refine congrArg (fun s => max (s + x3 (ix2 (0 : Fin 1) jj)) 0) (Finset.sum_congr rfl fun k _ => ?_)
  exact congrArg (· * x2 (ix2 k jj)) (congrArg₂ (· + ·) (h0 k) (h1 k))

/-- The printed index maps over the grid: the two row-blocked operands and the result move with the point, the
    weights and the bias rows stay at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of `G` of the six arrays as the region finds them. -/
theorem flushed_eq (c : Dev nD) (t : Fin cfg3.N) :
    (dat3 V c).flushed 6 t = ((cfg3.win 6).blk t).view.read (Elt Ideal)
      (G (V c main_v20) (V c main_v34) (V c main_arg11) (V c main_v35) (V c main_arg13) (V c main_v36)) := by
  show (cfg3.win 6).cut (grid3.coords t) ((dat3 V c).after 6 t) = _
  rw [after3_6]
  unfold out3_6
  rw [View.canon_unit_zero hz]
  simp only [View.ld_unit_zero (S := S5000x256) hz, View.ld_unit_zero (S := S256x256) hz, View.ld_unit_zero (S := S1x256) hz, View.ld_unit_zero (S := S256x256) hz]
  obtain ⟨e00, e01, e10, e11, e20, e21, e30, e31, e40, e41, e50, e51, e60, e61⟩ := idx_facts t
  have hw2 : (iblk3 V c 2 t : FVec Ideal S256x256 .f32) = V c main_arg11 := by
    funext y
    show V c main_arg11 (((cfg3.win 2).blk t).view.emb y) = V c main_arg11 y
    refine congrArg (V c main_arg11) (funext fun a => Fin.ext ?_)
    match a with
    | ⟨0, _⟩ => show win3_2.index t (0 : Fin 2) * 256 + 1 * (y 0).val = (y 0).val; omega
    | ⟨1, _⟩ => show win3_2.index t (1 : Fin 2) * 256 + 1 * (y 1).val = (y 1).val; omega
  have hw3 : (iblk3 V c 3 t : FVec Ideal S1x256 .f32) = V c main_v35 := by
    funext y
    show V c main_v35 (((cfg3.win 3).blk t).view.emb y) = V c main_v35 y
    refine congrArg (V c main_v35) (funext fun a => Fin.ext ?_)
    match a with
    | ⟨0, _⟩ => show win3_3.index t (0 : Fin 2) * 1 + 1 * (y 0).val = (y 0).val; omega
    | ⟨1, _⟩ => show win3_3.index t (1 : Fin 2) * 256 + 1 * (y 1).val = (y 1).val; omega
  have hw4 : (iblk3 V c 4 t : FVec Ideal S256x256 .f32) = V c main_arg13 := by
    funext y
    show V c main_arg13 (((cfg3.win 4).blk t).view.emb y) = V c main_arg13 y
    refine congrArg (V c main_arg13) (funext fun a => Fin.ext ?_)
    match a with
    | ⟨0, _⟩ => show win3_4.index t (0 : Fin 2) * 256 + 1 * (y 0).val = (y 0).val; omega
    | ⟨1, _⟩ => show win3_4.index t (1 : Fin 2) * 256 + 1 * (y 1).val = (y 1).val; omega
  have hw5 : (iblk3 V c 5 t : FVec Ideal S1x256 .f32) = V c main_v36 := by
    funext y
    show V c main_v36 (((cfg3.win 5).blk t).view.emb y) = V c main_v36 y
    refine congrArg (V c main_v36) (funext fun a => Fin.ext ?_)
    match a with
    | ⟨0, _⟩ => show win3_5.index t (0 : Fin 2) * 1 + 1 * (y 0).val = (y 0).val; omega
    | ⟨1, _⟩ => show win3_5.index t (1 : Fin 2) * 256 + 1 * (y 1).val = (y 1).val; omega
  funext j
  show k3_pay1 (F := Ideal) (iblk3 V c 0 t) (iblk3 V c 1 t) (iblk3 V c 2 t) (iblk3 V c 3 t) (iblk3 V c 4 t) (iblk3 V c 5 t) j
    = G (V c main_v20) (V c main_v34) (V c main_arg11) (V c main_v35) (V c main_arg13) (V c main_v36) (((cfg3.win 6).blk t).view.emb j)
  rw [hw2, hw3, hw4, hw5]
  refine block_eq (iblk3 V c 0 t) (iblk3 V c 1 t) (V c main_arg11) (V c main_v35) (V c main_arg13) (V c main_v36) (V c main_v20) (V c main_v34) j (((cfg3.win 6).blk t).view.emb j) ?_ ?_ ?_
  · show win3_6.index t (1 : Fin 2) * 256 + 1 * (j 1).val = (j 1).val; omega
  · intro k
    show V c main_v20 (((cfg3.win 0).blk t).view.emb (ix2 (j 0) k)) = V c main_v20 (ix2 ((((cfg3.win 6).blk t).view.emb j) 0) k)
    refine congrArg (V c main_v20) (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 256 + 1 * k.val = k.val; omega
  · intro k
    show V c main_v34 (((cfg3.win 1).blk t).view.emb (ix2 (j 0) k)) = V c main_v34 (ix2 ((((cfg3.win 6).blk t).view.emb j) 0) k)
    refine congrArg (V c main_v34) (funext fun a => Fin.ext ?_)
    match a with
    | ⟨0, _⟩ => show win3_1.index t (0 : Fin 2) * 5000 + 1 * (j 0).val = win3_6.index t (0 : Fin 2) * 5000 + 1 * (j 0).val; omega
    | ⟨1, _⟩ => show win3_1.index t (1 : Fin 2) * 256 + 1 * k.val = k.val; omega

/-- An index of the result is in point t's block iff each coordinate is in the block's range on its axis. -/
theorem mem_blk (t : Fin cfg3.N) (i : S50000x256.Idx) :
    i ∈ ((cfg3.win 6).blk t).view.set ↔ ∀ a : Fin 2, win3_6.index t a * S5000x256.size a ≤ (i a).val ∧ (i a).val < win3_6.index t a * S5000x256.size a + S5000x256.size a := by
  show i ∈ ((View.whole main_v37).slice (win3_6.rect t)).set ↔ _
  rw [View.set_slice_whole, Rect.mem_set_unit]
  exact Iff.rfl

/-- The blocks tile the result: row r lies in the block of point r / 5000. -/
theorem cover (i : S50000x256.Idx) : ∃ t : Fin cfg3.N, (cfg3.win 6).flush t = true ∧ i ∈ ((cfg3.win 6).blk t).view.set := by
  have hi0 : (i 0).val < 50000 := (i 0).isLt
  have hi1 : (i 1).val < 256 := (i 1).isLt
  have hN : cfg3.N = 10 := rfl
  let t : Fin cfg3.N := ⟨(i 0).val / 5000, by rw [hN]; omega⟩
  obtain ⟨e00, e01, e10, e11, e20, e21, e30, e31, e40, e41, e50, e51, e60, e61⟩ := idx_facts t
  have ht : t.val = (i 0).val / 5000 := rfl
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 256 ≤ (i 1).val ∧ (i 1).val < win3_6.index t (1 : Fin 2) * 256 + 256; omega

/-- The result array after the region: `G` of the six arrays as the region finds them. -/
theorem final (c : Dev nD) : (dat3 V c).arrAt 6 cfg3.N
    = G (V c main_v20) (V c main_v34) (V c main_arg11) (V c main_v35) (V c main_arg13) (V c main_v36) :=
  (dat3 V c).arrAt_eq_of_cover 6 (G (V c main_v20) (V c main_v34) (V c main_arg11) (V c main_v35) (V c main_arg13) (V c main_v36))
    (fun t _ => flushed_eq V c t) cover

end Cert.KernelIdeal.Node2

end
-- ==== Proof.KernelFold.lean ====
/-
  The idealized kernel's result as one term of the launch arrays.

  The buffer contents at each boundary between two segments of the program are a fold from the launch memory. Read
  at the buffers that matter: an argument array is never written, so at every boundary it holds its launch contents;
  the two index rows are cut out of the edge list once and never written again; each region's result array holds
  its region's function (a block-tiled product plus bias, or the two-layer perceptron) of what the region found;
  and the host operations between two regions gather the source rows, add the transformed edge attributes, rectify,
  and scatter-add into zeros. Composed, the result buffer ends at `OUT`: the second layer applied to the first.
-/
import proofs.«156893_j39032662786178_2_alg».proof.Proof.KernelRun
import proofs.«156893_j39032662786178_2_alg».proof.Proof.Edge1
import proofs.«156893_j39032662786178_2_alg».proof.Proof.Edge2
import proofs.«156893_j39032662786178_2_alg».proof.Proof.Node1
import proofs.«156893_j39032662786178_2_alg».proof.Proof.Node2
import Idealize.ShloMosaic.Lib.StableHlo.Run

set_option maxRecDepth 16384
set_option maxHeartbeats 1000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's transformed edge attributes. -/
def T1 (c : Dev nD) : S800000x128.Idx → EReal := (Edge1.G (m ((c : Thread nD τ).loc main_arg2)) (m ((c : Thread nD τ).loc main_arg3)) (shapeCast S1x128 (m ((c : Thread nD τ).loc main_arg4)) shapeCasts_S128_S1x128))
/-- The first layer's aggregated messages: gather the source rows, add, rectify, scatter-add at the target rows. -/
def AGG1 (c : Dev nD) : S50000x128.Idx → EReal := (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] (m ((c : Thread nD τ).loc main_arg1)) slices_S2x800000_S1x800000_1_0) shapeCasts_S1x800000_S800000)) (maximumf (addf (Host.gather gather_S50000x128_S800000x1_S800000x128_1_0_n_n_0_1_1128 (m ((c : Thread nD τ).loc main_arg0)) (broadcastInDim S800000x1 ![0] bcast_S800000_S800000x1_0 (select (cmpi CmpIPredicate.slt (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast S800000 (extractStridedSlice S1x800000 ![0, 0] (m ((c : Thread nD τ).loc main_arg1)) slices_S2x800000_S1x800000_0_0) shapeCasts_S1x800000_S800000)))) (T1 m c)) (broadcastInDim S800000x128 ![] bcast_S_S800000x128 (constant (F := Ideal) S_ .f32 0x00000000#32))))
/-- The first layer's node features. -/
def H1 (c : Dev nD) : S50000x256.Idx → EReal := Node1.G (m ((c : Thread nD τ).loc main_arg0)) (AGG1 m c) (m ((c : Thread nD τ).loc main_arg5)) (shapeCast S1x256 (m ((c : Thread nD τ).loc main_arg6)) shapeCasts_S256_S1x256) (m ((c : Thread nD τ).loc main_arg7)) (shapeCast S1x256 (m ((c : Thread nD τ).loc main_arg8)) shapeCasts_S256_S1x256)
/-- The second layer's transformed edge attributes. -/
def T2 (c : Dev nD) : S800000x256.Idx → EReal := Edge2.G (m ((c : Thread nD τ).loc main_arg2)) (m ((c : Thread nD τ).loc main_arg9)) (shapeCast S1x256 (m ((c : Thread nD τ).loc main_arg10)) shapeCasts_S256_S1x256)
/-- The second layer's aggregated messages. -/
def AGG2 (c : Dev nD) : S50000x256.Idx → EReal := (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast S800000 (extractStridedSlice S1x800000 ![1, 0] (m ((c : Thread nD τ).loc main_arg1)) slices_S2x800000_S1x800000_1_0) shapeCasts_S1x800000_S800000)) (maximumf (addf (Host.gather gather_S50000x256_S800000x1_S800000x256_1_0_n_n_0_1_1256 (H1 m c) (broadcastInDim S800000x1 ![0] bcast_S800000_S800000x1_0 (select (cmpi CmpIPredicate.slt (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast S800000 (extractStridedSlice S1x800000 ![0, 0] (m ((c : Thread nD τ).loc main_arg1)) slices_S2x800000_S1x800000_0_0) shapeCasts_S1x800000_S800000)))) (T2 m c)) (broadcastInDim S800000x256 ![] bcast_S_S800000x256 (constant (F := Ideal) S_ .f32 0x00000000#32))))
/-- The result. -/
def OUT (c : Dev nD) : S50000x256.Idx → EReal := Node2.G (H1 m c) (AGG2 m c) (m ((c : Thread nD τ).loc main_arg11)) (shapeCast S1x256 (m ((c : Thread nD τ).loc main_arg12)) shapeCasts_S256_S1x256) (m ((c : Thread nD τ).loc main_arg13)) (shapeCast S1x256 (m ((c : Thread nD τ).loc main_arg14)) shapeCasts_S256_S1x256)

theorem R1_arg2 (c : Dev nD) : W1 m ρ c (Proc.devRef .tc main_arg2) = (m ((c : Thread nD τ).loc main_arg2)) := by
  dsimp only [W1, hostOps0]; after_results_simp <;> rfl

theorem R1_arg3 (c : Dev nD) : W1 m ρ c (Proc.devRef .tc main_arg3) = (m ((c : Thread nD τ).loc main_arg3)) := by
  dsimp only [W1, hostOps0]; after_results_simp <;> rfl

theorem R1_v4 (c : Dev nD) : W1 m ρ c (Proc.devRef .tc main_v4) = (shapeCast S1x128 (m ((c : Thread nD τ).loc main_arg4)) shapeCasts_S128_S1x128) := by
  dsimp only [W1, hostOps0]; after_results_simp <;> rfl

/-- After the first region the transformed edge attributes are the product plus the bias, as one function of the launch arrays. -/
theorem R2_v5 (c : Dev nD) : W2 m ρ c (Proc.devRef .tc main_v5) = T1 m c :=
  (W2_arr m ρ c 3).trans ((Edge1.final (V1 m ρ) c).trans (by
    show Edge1.G (W1 m ρ c (Proc.devRef .tc main_arg2)) (W1 m ρ c (Proc.devRef .tc main_arg3)) (W1 m ρ c (Proc.devRef .tc main_v4)) = _
    rw [R1_arg2 m ρ c, R1_arg3 m ρ c, R1_v4 m ρ c]; rfl))

theorem R1_v3 (c : Dev nD) : W1 m ρ c (Proc.devRef .tc main_v3) = (shapeCast S800000 (extractStridedSlice S1x800000 ![1, 0] (m ((c : Thread nD τ).loc main_arg1)) slices_S2x800000_S1x800000_1_0) shapeCasts_S1x800000_S800000) := by
  dsimp only [W1, hostOps0]; after_results_simp <;> rfl

theorem R2_v3 (c : Dev nD) : W2 m ρ c (Proc.devRef .tc main_v3) = (shapeCast S800000 (extractStridedSlice S1x800000 ![1, 0] (m ((c : Thread nD τ).loc main_arg1)) slices_S2x800000_S1x800000_1_0) shapeCasts_S1x800000_S800000) :=
  ((W2_of_ne m ρ c main_v3 (by decide)) : W2 m ρ c (Proc.devRef .tc main_v3) = W1 m ρ c (Proc.devRef .tc main_v3)).trans (R1_v3 m ρ c)

theorem R1_arg0 (c : Dev nD) : W1 m ρ c (Proc.devRef .tc main_arg0) = (m ((c : Thread nD τ).loc main_arg0)) := by
  dsimp only [W1, hostOps0]; after_results_simp <;> rfl

theorem R2_arg0 (c : Dev nD) : W2 m ρ c (Proc.devRef .tc main_arg0) = (m ((c : Thread nD τ).loc main_arg0)) :=
  ((W2_of_ne m ρ c main_arg0 (by decide)) : W2 m ρ c (Proc.devRef .tc main_arg0) = W1 m ρ c (Proc.devRef .tc main_arg0)).trans (R1_arg0 m ρ c)

theorem R1_v1 (c : Dev nD) : W1 m ρ c (Proc.devRef .tc main_v1) = (shapeCast S800000 (extractStridedSlice S1x800000 ![0, 0] (m ((c : Thread nD τ).loc main_arg1)) slices_S2x800000_S1x800000_0_0) shapeCasts_S1x800000_S800000) := by
  dsimp only [W1, hostOps0]; after_results_simp <;> rfl

theorem R2_v1 (c : Dev nD) : W2 m ρ c (Proc.devRef .tc main_v1) = (shapeCast S800000 (extractStridedSlice S1x800000 ![0, 0] (m ((c : Thread nD τ).loc main_arg1)) slices_S2x800000_S1x800000_0_0) shapeCasts_S1x800000_S800000) :=
  ((W2_of_ne m ρ c main_v1 (by decide)) : W2 m ρ c (Proc.devRef .tc main_v1) = W1 m ρ c (Proc.devRef .tc main_v1)).trans (R1_v1 m ρ c)

/-- Before the second region the aggregated messages are the scatter-add of the rectified sums. -/
theorem R5_v17 (c : Dev nD) : W5 m ρ c (Proc.devRef .tc main_v17) = AGG1 m c :=
  ((by dsimp only [W5, hostOps1_2]; after_results_simp <;> rfl) : W5 m ρ c (Proc.devRef .tc main_v17) = (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (W2 m ρ c (Proc.devRef .tc main_v3))) (maximumf (addf (Host.gather gather_S50000x128_S800000x1_S800000x128_1_0_n_n_0_1_1128 (W2 m ρ c (Proc.devRef .tc main_arg0)) (broadcastInDim S800000x1 ![0] bcast_S800000_S800000x1_0 (select (cmpi CmpIPredicate.slt (W2 m ρ c (Proc.devRef .tc main_v1)) (broadcastInDim S800000 ![] bcast_S_S800000 (constantI S_ 32 0#32))) (addi (W2 m ρ c (Proc.devRef .tc main_v1)) (broadcastInDim S800000 ![] bcast_S_S800000 (constantI S_ 32 50000#32))) (W2 m ρ c (Proc.devRef .tc main_v1))))) (W2 m ρ c (Proc.devRef .tc main_v5))) (broadcastInDim S800000x128 ![] bcast_S_S800000x128 (constant (F := Ideal) S_ .f32 0x00000000#32))))).trans (by
    rw [R2_v3 m ρ c, R2_arg0 m ρ c, R2_v1 m ρ c, R2_v5 m ρ c]; rfl)

theorem R1_arg6 (c : Dev nD) : W1 m ρ c (Proc.devRef .tc main_arg6) = (m ((c : Thread nD τ).loc main_arg6)) := by
  dsimp only [W1, hostOps0]; after_results_simp <;> rfl

theorem R2_arg6 (c : Dev nD) : W2 m ρ c (Proc.devRef .tc main_arg6) = (m ((c : Thread nD τ).loc main_arg6)) :=
  ((W2_of_ne m ρ c main_arg6 (by decide)) : W2 m ρ c (Proc.devRef .tc main_arg6) = W1 m ρ c (Proc.devRef .tc main_arg6)).trans (R1_arg6 m ρ c)

theorem R1_arg8 (c : Dev nD) : W1 m ρ c (Proc.devRef .tc main_arg8) = (m ((c : Thread nD τ).loc main_arg8)) := by
  dsimp only [W1, hostOps0]; after_results_simp <;> rfl

theorem R2_arg8 (c : Dev nD) : W2 m ρ c (Proc.devRef .tc main_arg8) = (m ((c : Thread nD τ).loc main_arg8)) :=
  ((W2_of_ne m ρ c main_arg8 (by decide)) : W2 m ρ c (Proc.devRef .tc main_arg8) = W1 m ρ c (Proc.devRef .tc main_arg8)).trans (R1_arg8 m ρ c)

theorem R5_v18 (c : Dev nD) : W5 m ρ c (Proc.devRef .tc main_v18) = (shapeCast S1x256 (m ((c : Thread nD τ).loc main_arg6)) shapeCasts_S256_S1x256) :=
  ((by dsimp only [W5, hostOps1_2]; after_results_simp <;> rfl) : W5 m ρ c (Proc.devRef .tc main_v18) = (shapeCast S1x256 (W2 m ρ c (Proc.devRef .tc main_arg6)) shapeCasts_S256_S1x256)).trans (by rw [R2_arg6 m ρ c])

theorem R5_v19 (c : Dev nD) : W5 m ρ c (Proc.devRef .tc main_v19) = (shapeCast S1x256 (m ((c : Thread nD τ).loc main_arg8)) shapeCasts_S256_S1x256) :=
  ((by dsimp only [W5, hostOps1_2]; after_results_simp <;> rfl) : W5 m ρ c (Proc.devRef .tc main_v19) = (shapeCast S1x256 (W2 m ρ c (Proc.devRef .tc main_arg8)) shapeCasts_S256_S1x256)).trans (by rw [R2_arg8 m ρ c])

theorem R5_arg0 (c : Dev nD) : W5 m ρ c (Proc.devRef .tc main_arg0) = (m ((c : Thread nD τ).loc main_arg0)) :=
  ((by dsimp only [W5, hostOps1_2]; after_results_simp <;> rfl) : W5 m ρ c (Proc.devRef .tc main_arg0) = W2 m ρ c (Proc.devRef .tc main_arg0)).trans (R2_arg0 m ρ c)

theorem R1_arg5 (c : Dev nD) : W1 m ρ c (Proc.devRef .tc main_arg5) = (m ((c : Thread nD τ).loc main_arg5)) := by
  dsimp only [W1, hostOps0]; after_results_simp <;> rfl

theorem R2_arg5 (c : Dev nD) : W2 m ρ c (Proc.devRef .tc main_arg5) = (m ((c : Thread nD τ).loc main_arg5)) :=
  ((W2_of_ne m ρ c main_arg5 (by decide)) : W2 m ρ c (Proc.devRef .tc main_arg5) = W1 m ρ c (Proc.devRef .tc main_arg5)).trans (R1_arg5 m ρ c)

theorem R5_arg5 (c : Dev nD) : W5 m ρ c (Proc.devRef .tc main_arg5) = (m ((c : Thread nD τ).loc main_arg5)) :=
  ((by dsimp only [W5, hostOps1_2]; after_results_simp <;> rfl) : W5 m ρ c (Proc.devRef .tc main_arg5) = W2 m ρ c (Proc.devRef .tc main_arg5)).trans (R2_arg5 m ρ c)

theorem R1_arg7 (c : Dev nD) : W1 m ρ c (Proc.devRef .tc main_arg7) = (m ((c : Thread nD τ).loc main_arg7)) := by
  dsimp only [W1, hostOps0]; after_results_simp <;> rfl

theorem R2_arg7 (c : Dev nD) : W2 m ρ c (Proc.devRef .tc main_arg7) = (m ((c : Thread nD τ).loc main_arg7)) :=
  ((W2_of_ne m ρ c main_arg7 (by decide)) : W2 m ρ c (Proc.devRef .tc main_arg7) = W1 m ρ c (Proc.devRef .tc main_arg7)).trans (R1_arg7 m ρ c)

theorem R5_arg7 (c : Dev nD) : W5 m ρ c (Proc.devRef .tc main_arg7) = (m ((c : Thread nD τ).loc main_arg7)) :=
  ((by dsimp only [W5, hostOps1_2]; after_results_simp <;> rfl) : W5 m ρ c (Proc.devRef .tc main_arg7) = W2 m ρ c (Proc.devRef .tc main_arg7)).trans (R2_arg7 m ρ c)

/-- After the second region the first layer's node features are the perceptron of the inputs plus the messages. -/
theorem R6_v20 (c : Dev nD) : W6 m ρ c (Proc.devRef .tc main_v20) = H1 m c :=
  (W6_arr m ρ c 6).trans ((Node1.final (V5 m ρ) c).trans (by
    show Node1.G (W5 m ρ c (Proc.devRef .tc main_arg0)) (W5 m ρ c (Proc.devRef .tc main_v17)) (W5 m ρ c (Proc.devRef .tc main_arg5)) (W5 m ρ c (Proc.devRef .tc main_v18)) (W5 m ρ c (Proc.devRef .tc main_arg7)) (W5 m ρ c (Proc.devRef .tc main_v19)) = _
    rw [R5_arg0 m ρ c, R5_v17 m ρ c, R5_arg5 m ρ c, R5_v18 m ρ c, R5_arg7 m ρ c, R5_v19 m ρ c]; rfl))

theorem R2_arg2 (c : Dev nD) : W2 m ρ c (Proc.devRef .tc main_arg2) = (m ((c : Thread nD τ).loc main_arg2)) :=
  (((W2_arr m ρ c 0).trans (((dat0 (V1 m ρ) c).arrAt_in 0 rfl _).trans (A_eq0 (V1 m ρ) c 0))) : W2 m ρ c (Proc.devRef .tc main_arg2) = W1 m ρ c (Proc.devRef .tc main_arg2)).trans (R1_arg2 m ρ c)

theorem R5_arg2 (c : Dev nD) : W5 m ρ c (Proc.devRef .tc main_arg2) = (m ((c : Thread nD τ).loc main_arg2)) :=
  ((by dsimp only [W5, hostOps1_2]; after_results_simp <;> rfl) : W5 m ρ c (Proc.devRef .tc main_arg2) = W2 m ρ c (Proc.devRef .tc main_arg2)).trans (R2_arg2 m ρ c)

theorem R6_arg2 (c : Dev nD) : W6 m ρ c (Proc.devRef .tc main_arg2) = (m ((c : Thread nD τ).loc main_arg2)) :=
  ((W6_of_ne m ρ c main_arg2 (by decide)) : W6 m ρ c (Proc.devRef .tc main_arg2) = W5 m ρ c (Proc.devRef .tc main_arg2)).trans (R5_arg2 m ρ c)

theorem R7_arg2 (c : Dev nD) : W7 m ρ c (Proc.devRef .tc main_arg2) = (m ((c : Thread nD τ).loc main_arg2)) :=
  ((by dsimp only [W7, hostOps2]; after_results_simp <;> rfl) : W7 m ρ c (Proc.devRef .tc main_arg2) = W6 m ρ c (Proc.devRef .tc main_arg2)).trans (R6_arg2 m ρ c)

theorem R1_arg9 (c : Dev nD) : W1 m ρ c (Proc.devRef .tc main_arg9) = (m ((c : Thread nD τ).loc main_arg9)) := by
  dsimp only [W1, hostOps0]; after_results_simp <;> rfl

theorem R2_arg9 (c : Dev nD) : W2 m ρ c (Proc.devRef .tc main_arg9) = (m ((c : Thread nD τ).loc main_arg9)) :=
  ((W2_of_ne m ρ c main_arg9 (by decide)) : W2 m ρ c (Proc.devRef .tc main_arg9) = W1 m ρ c (Proc.devRef .tc main_arg9)).trans (R1_arg9 m ρ c)

theorem R5_arg9 (c : Dev nD) : W5 m ρ c (Proc.devRef .tc main_arg9) = (m ((c : Thread nD τ).loc main_arg9)) :=
  ((by dsimp only [W5, hostOps1_2]; after_results_simp <;> rfl) : W5 m ρ c (Proc.devRef .tc main_arg9) = W2 m ρ c (Proc.devRef .tc main_arg9)).trans (R2_arg9 m ρ c)

theorem R6_arg9 (c : Dev nD) : W6 m ρ c (Proc.devRef .tc main_arg9) = (m ((c : Thread nD τ).loc main_arg9)) :=
  ((W6_of_ne m ρ c main_arg9 (by decide)) : W6 m ρ c (Proc.devRef .tc main_arg9) = W5 m ρ c (Proc.devRef .tc main_arg9)).trans (R5_arg9 m ρ c)

theorem R7_arg9 (c : Dev nD) : W7 m ρ c (Proc.devRef .tc main_arg9) = (m ((c : Thread nD τ).loc main_arg9)) :=
  ((by dsimp only [W7, hostOps2]; after_results_simp <;> rfl) : W7 m ρ c (Proc.devRef .tc main_arg9) = W6 m ρ c (Proc.devRef .tc main_arg9)).trans (R6_arg9 m ρ c)

theorem R1_arg10 (c : Dev nD) : W1 m ρ c (Proc.devRef .tc main_arg10) = (m ((c : Thread nD τ).loc main_arg10)) := by
  dsimp only [W1, hostOps0]; after_results_simp <;> rfl

theorem R2_arg10 (c : Dev nD) : W2 m ρ c (Proc.devRef .tc main_arg10) = (m ((c : Thread nD τ).loc main_arg10)) :=
  ((W2_of_ne m ρ c main_arg10 (by decide)) : W2 m ρ c (Proc.devRef .tc main_arg10) = W1 m ρ c (Proc.devRef .tc main_arg10)).trans (R1_arg10 m ρ c)

theorem R5_arg10 (c : Dev nD) : W5 m ρ c (Proc.devRef .tc main_arg10) = (m ((c : Thread nD τ).loc main_arg10)) :=
  ((by dsimp only [W5, hostOps1_2]; after_results_simp <;> rfl) : W5 m ρ c (Proc.devRef .tc main_arg10) = W2 m ρ c (Proc.devRef .tc main_arg10)).trans (R2_arg10 m ρ c)

theorem R6_arg10 (c : Dev nD) : W6 m ρ c (Proc.devRef .tc main_arg10) = (m ((c : Thread nD τ).loc main_arg10)) :=
  ((W6_of_ne m ρ c main_arg10 (by decide)) : W6 m ρ c (Proc.devRef .tc main_arg10) = W5 m ρ c (Proc.devRef .tc main_arg10)).trans (R5_arg10 m ρ c)

theorem R7_v21 (c : Dev nD) : W7 m ρ c (Proc.devRef .tc main_v21) = (shapeCast S1x256 (m ((c : Thread nD τ).loc main_arg10)) shapeCasts_S256_S1x256) :=
  ((by dsimp only [W7, hostOps2]; after_results_simp <;> rfl) : W7 m ρ c (Proc.devRef .tc main_v21) = (shapeCast S1x256 (W6 m ρ c (Proc.devRef .tc main_arg10)) shapeCasts_S256_S1x256)).trans (by rw [R6_arg10 m ρ c])

theorem R8_v22 (c : Dev nD) : W8 m ρ c (Proc.devRef .tc main_v22) = T2 m c :=
  (W8_arr m ρ c 3).trans ((Edge2.final (V7 m ρ) c).trans (by
    show Edge2.G (W7 m ρ c (Proc.devRef .tc main_arg2)) (W7 m ρ c (Proc.devRef .tc main_arg9)) (W7 m ρ c (Proc.devRef .tc main_v21)) = _
    rw [R7_arg2 m ρ c, R7_arg9 m ρ c, R7_v21 m ρ c]; rfl))

theorem R7_v20 (c : Dev nD) : W7 m ρ c (Proc.devRef .tc main_v20) = H1 m c :=
  ((by dsimp only [W7, hostOps2]; after_results_simp <;> rfl) : W7 m ρ c (Proc.devRef .tc main_v20) = W6 m ρ c (Proc.devRef .tc main_v20)).trans (R6_v20 m ρ c)

theorem R8_v20 (c : Dev nD) : W8 m ρ c (Proc.devRef .tc main_v20) = H1 m c :=
  (W8_of_ne m ρ c main_v20 (by decide) : W8 m ρ c (Proc.devRef .tc main_v20) = W7 m ρ c (Proc.devRef .tc main_v20)).trans (R7_v20 m ρ c)

theorem R5_v1 (c : Dev nD) : W5 m ρ c (Proc.devRef .tc main_v1) = (shapeCast S800000 (extractStridedSlice S1x800000 ![0, 0] (m ((c : Thread nD τ).loc main_arg1)) slices_S2x800000_S1x800000_0_0) shapeCasts_S1x800000_S800000) :=
  ((by dsimp only [W5, hostOps1_2]; after_results_simp <;> rfl) : W5 m ρ c (Proc.devRef .tc main_v1) = W2 m ρ c (Proc.devRef .tc main_v1)).trans (R2_v1 m ρ c)

theorem R6_v1 (c : Dev nD) : W6 m ρ c (Proc.devRef .tc main_v1) = (shapeCast S800000 (extractStridedSlice S1x800000 ![0, 0] (m ((c : Thread nD τ).loc main_arg1)) slices_S2x800000_S1x800000_0_0) shapeCasts_S1x800000_S800000) :=
  ((W6_of_ne m ρ c main_v1 (by decide)) : W6 m ρ c (Proc.devRef .tc main_v1) = W5 m ρ c (Proc.devRef .tc main_v1)).trans (R5_v1 m ρ c)

theorem R7_v1 (c : Dev nD) : W7 m ρ c (Proc.devRef .tc main_v1) = (shapeCast S800000 (extractStridedSlice S1x800000 ![0, 0] (m ((c : Thread nD τ).loc main_arg1)) slices_S2x800000_S1x800000_0_0) shapeCasts_S1x800000_S800000) :=
  ((by dsimp only [W7, hostOps2]; after_results_simp <;> rfl) : W7 m ρ c (Proc.devRef .tc main_v1) = W6 m ρ c (Proc.devRef .tc main_v1)).trans (R6_v1 m ρ c)

theorem R8_v1 (c : Dev nD) : W8 m ρ c (Proc.devRef .tc main_v1) = (shapeCast S800000 (extractStridedSlice S1x800000 ![0, 0] (m ((c : Thread nD τ).loc main_arg1)) slices_S2x800000_S1x800000_0_0) shapeCasts_S1x800000_S800000) :=
  ((W8_of_ne m ρ c main_v1 (by decide)) : W8 m ρ c (Proc.devRef .tc main_v1) = W7 m ρ c (Proc.devRef .tc main_v1)).trans (R7_v1 m ρ c)

theorem R5_v3 (c : Dev nD) : W5 m ρ c (Proc.devRef .tc main_v3) = (shapeCast S800000 (extractStridedSlice S1x800000 ![1, 0] (m ((c : Thread nD τ).loc main_arg1)) slices_S2x800000_S1x800000_1_0) shapeCasts_S1x800000_S800000) :=
  ((by dsimp only [W5, hostOps1_2]; after_results_simp <;> rfl) : W5 m ρ c (Proc.devRef .tc main_v3) = W2 m ρ c (Proc.devRef .tc main_v3)).trans (R2_v3 m ρ c)

theorem R6_v3 (c : Dev nD) : W6 m ρ c (Proc.devRef .tc main_v3) = (shapeCast S800000 (extractStridedSlice S1x800000 ![1, 0] (m ((c : Thread nD τ).loc main_arg1)) slices_S2x800000_S1x800000_1_0) shapeCasts_S1x800000_S800000) :=
  ((W6_of_ne m ρ c main_v3 (by decide)) : W6 m ρ c (Proc.devRef .tc main_v3) = W5 m ρ c (Proc.devRef .tc main_v3)).trans (R5_v3 m ρ c)

theorem R7_v3 (c : Dev nD) : W7 m ρ c (Proc.devRef .tc main_v3) = (shapeCast S800000 (extractStridedSlice S1x800000 ![1, 0] (m ((c : Thread nD τ).loc main_arg1)) slices_S2x800000_S1x800000_1_0) shapeCasts_S1x800000_S800000) :=
  ((by dsimp only [W7, hostOps2]; after_results_simp <;> rfl) : W7 m ρ c (Proc.devRef .tc main_v3) = W6 m ρ c (Proc.devRef .tc main_v3)).trans (R6_v3 m ρ c)

theorem R8_v3 (c : Dev nD) : W8 m ρ c (Proc.devRef .tc main_v3) = (shapeCast S800000 (extractStridedSlice S1x800000 ![1, 0] (m ((c : Thread nD τ).loc main_arg1)) slices_S2x800000_S1x800000_1_0) shapeCasts_S1x800000_S800000) :=
  ((W8_of_ne m ρ c main_v3 (by decide)) : W8 m ρ c (Proc.devRef .tc main_v3) = W7 m ρ c (Proc.devRef .tc main_v3)).trans (R7_v3 m ρ c)

theorem R11_v34 (c : Dev nD) : W11 m ρ c (Proc.devRef .tc main_v34) = AGG2 m c :=
  ((by dsimp only [W11, hostOps3_2]; after_results_simp <;> rfl) : W11 m ρ c (Proc.devRef .tc main_v34) = (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (W8 m ρ c (Proc.devRef .tc main_v3))) (maximumf (addf (Host.gather gather_S50000x256_S800000x1_S800000x256_1_0_n_n_0_1_1256 (W8 m ρ c (Proc.devRef .tc main_v20)) (broadcastInDim S800000x1 ![0] bcast_S800000_S800000x1_0 (select (cmpi CmpIPredicate.slt (W8 m ρ c (Proc.devRef .tc main_v1)) (broadcastInDim S800000 ![] bcast_S_S800000 (constantI S_ 32 0#32))) (addi (W8 m ρ c (Proc.devRef .tc main_v1)) (broadcastInDim S800000 ![] bcast_S_S800000 (constantI S_ 32 50000#32))) (W8 m ρ c (Proc.devRef .tc main_v1))))) (W8 m ρ c (Proc.devRef .tc main_v22))) (broadcastInDim S800000x256 ![] bcast_S_S800000x256 (constant (F := Ideal) S_ .f32 0x00000000#32))))).trans (by
    rw [R8_v3 m ρ c, R8_v20 m ρ c, R8_v1 m ρ c, R8_v22 m ρ c]; rfl)

theorem R1_arg12 (c : Dev nD) : W1 m ρ c (Proc.devRef .tc main_arg12) = (m ((c : Thread nD τ).loc main_arg12)) := by
  dsimp only [W1, hostOps0]; after_results_simp <;> rfl

theorem R2_arg12 (c : Dev nD) : W2 m ρ c (Proc.devRef .tc main_arg12) = (m ((c : Thread nD τ).loc main_arg12)) :=
  ((W2_of_ne m ρ c main_arg12 (by decide)) : W2 m ρ c (Proc.devRef .tc main_arg12) = W1 m ρ c (Proc.devRef .tc main_arg12)).trans (R1_arg12 m ρ c)

theorem R5_arg12 (c : Dev nD) : W5 m ρ c (Proc.devRef .tc main_arg12) = (m ((c : Thread nD τ).loc main_arg12)) :=
  ((by dsimp only [W5, hostOps1_2]; after_results_simp <;> rfl) : W5 m ρ c (Proc.devRef .tc main_arg12) = W2 m ρ c (Proc.devRef .tc main_arg12)).trans (R2_arg12 m ρ c)

theorem R6_arg12 (c : Dev nD) : W6 m ρ c (Proc.devRef .tc main_arg12) = (m ((c : Thread nD τ).loc main_arg12)) :=
  ((W6_of_ne m ρ c main_arg12 (by decide)) : W6 m ρ c (Proc.devRef .tc main_arg12) = W5 m ρ c (Proc.devRef .tc main_arg12)).trans (R5_arg12 m ρ c)

theorem R7_arg12 (c : Dev nD) : W7 m ρ c (Proc.devRef .tc main_arg12) = (m ((c : Thread nD τ).loc main_arg12)) :=
  ((by dsimp only [W7, hostOps2]; after_results_simp <;> rfl) : W7 m ρ c (Proc.devRef .tc main_arg12) = W6 m ρ c (Proc.devRef .tc main_arg12)).trans (R6_arg12 m ρ c)

theorem R8_arg12 (c : Dev nD) : W8 m ρ c (Proc.devRef .tc main_arg12) = (m ((c : Thread nD τ).loc main_arg12)) :=
  ((W8_of_ne m ρ c main_arg12 (by decide)) : W8 m ρ c (Proc.devRef .tc main_arg12) = W7 m ρ c (Proc.devRef .tc main_arg12)).trans (R7_arg12 m ρ c)

theorem R1_arg14 (c : Dev nD) : W1 m ρ c (Proc.devRef .tc main_arg14) = (m ((c : Thread nD τ).loc main_arg14)) := by
  dsimp only [W1, hostOps0]; after_results_simp <;> rfl

theorem R2_arg14 (c : Dev nD) : W2 m ρ c (Proc.devRef .tc main_arg14) = (m ((c : Thread nD τ).loc main_arg14)) :=
  ((W2_of_ne m ρ c main_arg14 (by decide)) : W2 m ρ c (Proc.devRef .tc main_arg14) = W1 m ρ c (Proc.devRef .tc main_arg14)).trans (R1_arg14 m ρ c)

theorem R5_arg14 (c : Dev nD) : W5 m ρ c (Proc.devRef .tc main_arg14) = (m ((c : Thread nD τ).loc main_arg14)) :=
  ((by dsimp only [W5, hostOps1_2]; after_results_simp <;> rfl) : W5 m ρ c (Proc.devRef .tc main_arg14) = W2 m ρ c (Proc.devRef .tc main_arg14)).trans (R2_arg14 m ρ c)

theorem R6_arg14 (c : Dev nD) : W6 m ρ c (Proc.devRef .tc main_arg14) = (m ((c : Thread nD τ).loc main_arg14)) :=
  ((W6_of_ne m ρ c main_arg14 (by decide)) : W6 m ρ c (Proc.devRef .tc main_arg14) = W5 m ρ c (Proc.devRef .tc main_arg14)).trans (R5_arg14 m ρ c)

theorem R7_arg14 (c : Dev nD) : W7 m ρ c (Proc.devRef .tc main_arg14) = (m ((c : Thread nD τ).loc main_arg14)) :=
  ((by dsimp only [W7, hostOps2]; after_results_simp <;> rfl) : W7 m ρ c (Proc.devRef .tc main_arg14) = W6 m ρ c (Proc.devRef .tc main_arg14)).trans (R6_arg14 m ρ c)

theorem R8_arg14 (c : Dev nD) : W8 m ρ c (Proc.devRef .tc main_arg14) = (m ((c : Thread nD τ).loc main_arg14)) :=
  ((W8_of_ne m ρ c main_arg14 (by decide)) : W8 m ρ c (Proc.devRef .tc main_arg14) = W7 m ρ c (Proc.devRef .tc main_arg14)).trans (R7_arg14 m ρ c)

theorem R11_v35 (c : Dev nD) : W11 m ρ c (Proc.devRef .tc main_v35) = (shapeCast S1x256 (m ((c : Thread nD τ).loc main_arg12)) shapeCasts_S256_S1x256) :=
  ((by dsimp only [W11, hostOps3_2]; after_results_simp <;> rfl) : W11 m ρ c (Proc.devRef .tc main_v35) = (shapeCast S1x256 (W8 m ρ c (Proc.devRef .tc main_arg12)) shapeCasts_S256_S1x256)).trans (by rw [R8_arg12 m ρ c])

theorem R11_v36 (c : Dev nD) : W11 m ρ c (Proc.devRef .tc main_v36) = (shapeCast S1x256 (m ((c : Thread nD τ).loc main_arg14)) shapeCasts_S256_S1x256) :=
  ((by dsimp only [W11, hostOps3_2]; after_results_simp <;> rfl) : W11 m ρ c (Proc.devRef .tc main_v36) = (shapeCast S1x256 (W8 m ρ c (Proc.devRef .tc main_arg14)) shapeCasts_S256_S1x256)).trans (by rw [R8_arg14 m ρ c])

theorem R11_v20 (c : Dev nD) : W11 m ρ c (Proc.devRef .tc main_v20) = H1 m c :=
  ((by dsimp only [W11, hostOps3_2]; after_results_simp <;> rfl) : W11 m ρ c (Proc.devRef .tc main_v20) = W8 m ρ c (Proc.devRef .tc main_v20)).trans (R8_v20 m ρ c)

theorem R1_arg11 (c : Dev nD) : W1 m ρ c (Proc.devRef .tc main_arg11) = (m ((c : Thread nD τ).loc main_arg11)) := by
  dsimp only [W1, hostOps0]; after_results_simp <;> rfl

theorem R2_arg11 (c : Dev nD) : W2 m ρ c (Proc.devRef .tc main_arg11) = (m ((c : Thread nD τ).loc main_arg11)) :=
  ((W2_of_ne m ρ c main_arg11 (by decide)) : W2 m ρ c (Proc.devRef .tc main_arg11) = W1 m ρ c (Proc.devRef .tc main_arg11)).trans (R1_arg11 m ρ c)

theorem R5_arg11 (c : Dev nD) : W5 m ρ c (Proc.devRef .tc main_arg11) = (m ((c : Thread nD τ).loc main_arg11)) :=
  ((by dsimp only [W5, hostOps1_2]; after_results_simp <;> rfl) : W5 m ρ c (Proc.devRef .tc main_arg11) = W2 m ρ c (Proc.devRef .tc main_arg11)).trans (R2_arg11 m ρ c)

theorem R6_arg11 (c : Dev nD) : W6 m ρ c (Proc.devRef .tc main_arg11) = (m ((c : Thread nD τ).loc main_arg11)) :=
  ((W6_of_ne m ρ c main_arg11 (by decide)) : W6 m ρ c (Proc.devRef .tc main_arg11) = W5 m ρ c (Proc.devRef .tc main_arg11)).trans (R5_arg11 m ρ c)

theorem R7_arg11 (c : Dev nD) : W7 m ρ c (Proc.devRef .tc main_arg11) = (m ((c : Thread nD τ).loc main_arg11)) :=
  ((by dsimp only [W7, hostOps2]; after_results_simp <;> rfl) : W7 m ρ c (Proc.devRef .tc main_arg11) = W6 m ρ c (Proc.devRef .tc main_arg11)).trans (R6_arg11 m ρ c)

theorem R8_arg11 (c : Dev nD) : W8 m ρ c (Proc.devRef .tc main_arg11) = (m ((c : Thread nD τ).loc main_arg11)) :=
  ((W8_of_ne m ρ c main_arg11 (by decide)) : W8 m ρ c (Proc.devRef .tc main_arg11) = W7 m ρ c (Proc.devRef .tc main_arg11)).trans (R7_arg11 m ρ c)

theorem R11_arg11 (c : Dev nD) : W11 m ρ c (Proc.devRef .tc main_arg11) = (m ((c : Thread nD τ).loc main_arg11)) :=
  ((by dsimp only [W11, hostOps3_2]; after_results_simp <;> rfl) : W11 m ρ c (Proc.devRef .tc main_arg11) = W8 m ρ c (Proc.devRef .tc main_arg11)).trans (R8_arg11 m ρ c)

theorem R1_arg13 (c : Dev nD) : W1 m ρ c (Proc.devRef .tc main_arg13) = (m ((c : Thread nD τ).loc main_arg13)) := by
  dsimp only [W1, hostOps0]; after_results_simp <;> rfl

theorem R2_arg13 (c : Dev nD) : W2 m ρ c (Proc.devRef .tc main_arg13) = (m ((c : Thread nD τ).loc main_arg13)) :=
  ((W2_of_ne m ρ c main_arg13 (by decide)) : W2 m ρ c (Proc.devRef .tc main_arg13) = W1 m ρ c (Proc.devRef .tc main_arg13)).trans (R1_arg13 m ρ c)

theorem R5_arg13 (c : Dev nD) : W5 m ρ c (Proc.devRef .tc main_arg13) = (m ((c : Thread nD τ).loc main_arg13)) :=
  ((by dsimp only [W5, hostOps1_2]; after_results_simp <;> rfl) : W5 m ρ c (Proc.devRef .tc main_arg13) = W2 m ρ c (Proc.devRef .tc main_arg13)).trans (R2_arg13 m ρ c)

theorem R6_arg13 (c : Dev nD) : W6 m ρ c (Proc.devRef .tc main_arg13) = (m ((c : Thread nD τ).loc main_arg13)) :=
  ((W6_of_ne m ρ c main_arg13 (by decide)) : W6 m ρ c (Proc.devRef .tc main_arg13) = W5 m ρ c (Proc.devRef .tc main_arg13)).trans (R5_arg13 m ρ c)

theorem R7_arg13 (c : Dev nD) : W7 m ρ c (Proc.devRef .tc main_arg13) = (m ((c : Thread nD τ).loc main_arg13)) :=
  ((by dsimp only [W7, hostOps2]; after_results_simp <;> rfl) : W7 m ρ c (Proc.devRef .tc main_arg13) = W6 m ρ c (Proc.devRef .tc main_arg13)).trans (R6_arg13 m ρ c)

theorem R8_arg13 (c : Dev nD) : W8 m ρ c (Proc.devRef .tc main_arg13) = (m ((c : Thread nD τ).loc main_arg13)) :=
  ((W8_of_ne m ρ c main_arg13 (by decide)) : W8 m ρ c (Proc.devRef .tc main_arg13) = W7 m ρ c (Proc.devRef .tc main_arg13)).trans (R7_arg13 m ρ c)

theorem R11_arg13 (c : Dev nD) : W11 m ρ c (Proc.devRef .tc main_arg13) = (m ((c : Thread nD τ).loc main_arg13)) :=
  ((by dsimp only [W11, hostOps3_2]; after_results_simp <;> rfl) : W11 m ρ c (Proc.devRef .tc main_arg13) = W8 m ρ c (Proc.devRef .tc main_arg13)).trans (R8_arg13 m ρ c)

/-- The result: the second layer's perceptron of the first layer's features plus their messages. -/
theorem result (c : Dev nD) : W12 m ρ c (Proc.devRef .tc main_v37) = OUT m c :=
  (W12_arr m ρ c 6).trans ((Node2.final (V11 m ρ) c).trans (by
    show Node2.G (W11 m ρ c (Proc.devRef .tc main_v20)) (W11 m ρ c (Proc.devRef .tc main_v34)) (W11 m ρ c (Proc.devRef .tc main_arg11)) (W11 m ρ c (Proc.devRef .tc main_v35)) (W11 m ρ c (Proc.devRef .tc main_arg13)) (W11 m ρ c (Proc.devRef .tc main_v36)) = _
    rw [R11_v20 m ρ c, R11_v34 m ρ c, R11_arg11 m ρ c, R11_v35 m ρ c, R11_arg13 m ρ c, R11_v36 m ρ c]; rfl))

end Cert.KernelIdeal.Fold

end
-- ==== Proof.LibGineBridge.lean ====
/-
  The two spellings of a message-passing layer, each equal to the one function `Cert.Lib.Gine.layer`.

  A kernel-style layer: the edge transform and the perceptron arrive as whole-array functions with their biases as
  one-row arrays (a vector cast to one row), and the host operations between them gather, add, rectify against a
  scalar zero spread over the array, and scatter-add. A host-style layer: everything is host operations — the
  product by `dot_general`, each bias a vector placed as one row and repeated over the rows, the bias added AFTER the
  gathered row, and the node's features multiplied by a scalar one spread over the array. The differences are the
  association of two additions and a multiplication by one, both laws of the extended reals at the infinities too.

  Here: `edgeRow` and `nodeRow` (the two region functions with one-row biases) and their forms over bias vectors
  (`edgeRow_cast`, `nodeRow_cast`); `host_dot_apply` (the host's product at an entry); `relu_msg` (a maximum against
  a scalar zero spread over the array is the rectifier); `kernel_layer` and `host_layer` (each spelling is `layer`,
  for any gather `g` and scatter-add `s`). Imports the layer file of the same name family.
-/
import proofs.«156893_j39032662786178_2_alg».proof.Proof.LibGineLayer

noncomputable section

namespace Cert.Lib.Gine

open Idealize.ShloMosaic Idealize.ShloMosaic.ValueIdx

/-- The edge transform with its bias as a one-row array. -/
def edgeRow {E K D : ℕ} (a : (⟨2, ![E, K]⟩ : Shape).Idx → EReal) (w : (⟨2, ![K, D]⟩ : Shape).Idx → EReal)
    (b : (⟨2, ![1, D]⟩ : Shape).Idx → EReal) : (⟨2, ![E, D]⟩ : Shape).Idx → EReal := fun i =>
  (∑ k : Fin K, a (ix2 (i 0) k) * w (ix2 k (i 1))) + b (ix2 (0 : Fin 1) (i 1))

/-- The perceptron of the sum of two arrays, its biases as one-row arrays. -/
def nodeRow {N A H C : ℕ} (x : (⟨2, ![N, A]⟩ : Shape).Idx → EReal) (g : (⟨2, ![N, A]⟩ : Shape).Idx → EReal)
    (w1 : (⟨2, ![A, H]⟩ : Shape).Idx → EReal) (b1 : (⟨2, ![1, H]⟩ : Shape).Idx → EReal)
    (w2 : (⟨2, ![H, C]⟩ : Shape).Idx → EReal) (b2 : (⟨2, ![1, C]⟩ : Shape).Idx → EReal) : (⟨2, ![N, C]⟩ : Shape).Idx → EReal := fun i =>
  (∑ j : Fin H, max ((∑ k : Fin A, (x (ix2 (i 0) k) + g (ix2 (i 0) k)) * w1 (ix2 k j)) + b1 (ix2 (0 : Fin 1) j)) 0
      * w2 (ix2 j (i 1))) + b2 (ix2 (0 : Fin 1) (i 1))

/-- A bias vector cast to one row: the edge transform is `edgeLin`. -/
theorem edgeRow_cast {E K D : ℕ} (a : (⟨2, ![E, K]⟩ : Shape).Idx → EReal) (w : (⟨2, ![K, D]⟩ : Shape).Idx → EReal)
    (b : (⟨1, ![D]⟩ : Shape).Idx → EReal) (h : (⟨1, ![D]⟩ : Shape).ShapeCasts ⟨2, ![1, D]⟩) :
    edgeRow a w (shapeCast ⟨2, ![1, D]⟩ b h) = edgeLin a w b := by
  funext i
  obtain ⟨p, q, rfl⟩ : ∃ (p : Fin E) (q : Fin D), i = ix2 p q := ⟨i 0, i 1, eq_ix2 i⟩
  show (∑ k : Fin K, a (ix2 p k) * w (ix2 k q)) + shapeCast ⟨2, ![1, D]⟩ b h (ix2 (0 : Fin 1) q)
    = (∑ k : Fin K, a (ix2 p k) * w (ix2 k q)) + b (ix1 q)
  rw [shapeCast_a_1a_apply]

/-- Bias vectors cast to one row: the perceptron is `mlp` of the sum. -/
theorem nodeRow_cast {N A H C : ℕ} (x : (⟨2, ![N, A]⟩ : Shape).Idx → EReal) (g : (⟨2, ![N, A]⟩ : Shape).Idx → EReal)
    (w1 : (⟨2, ![A, H]⟩ : Shape).Idx → EReal) (b1 : (⟨1, ![H]⟩ : Shape).Idx → EReal) (w2 : (⟨2, ![H, C]⟩ : Shape).Idx → EReal)
    (b2 : (⟨1, ![C]⟩ : Shape).Idx → EReal) (h1 : (⟨1, ![H]⟩ : Shape).ShapeCasts ⟨2, ![1, H]⟩) (h2 : (⟨1, ![C]⟩ : Shape).ShapeCasts ⟨2, ![1, C]⟩) :
    nodeRow x g w1 (shapeCast ⟨2, ![1, H]⟩ b1 h1) w2 (shapeCast ⟨2, ![1, C]⟩ b2 h2) = mlp (fun i => x i + g i) w1 b1 w2 b2 := by
  funext i
  obtain ⟨p, q, rfl⟩ : ∃ (p : Fin N) (q : Fin C), i = ix2 p q := ⟨i 0, i 1, eq_ix2 i⟩
  show (∑ j : Fin H, max ((∑ k : Fin A, (x (ix2 p k) + g (ix2 p k)) * w1 (ix2 k j)) + shapeCast ⟨2, ![1, H]⟩ b1 h1 (ix2 (0 : Fin 1) j)) 0
        * w2 (ix2 j q)) + shapeCast ⟨2, ![1, C]⟩ b2 h2 (ix2 (0 : Fin 1) q)
    = (∑ j : Fin H, max ((∑ k : Fin A, (x (ix2 p k) + g (ix2 p k)) * w1 (ix2 k j)) + b1 (ix1 j)) 0 * w2 (ix2 j q)) + b2 (ix1 q)
  simp only [shapeCast_a_1a_apply]

/-- The host's matrix product at `(p, c)`: the row of the left operand times the column of the right. -/
theorem host_dot_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : FVec Ideal ⟨2, ![M, K]⟩ .f32) (r : FVec Ideal ⟨2, ![K, N]⟩ .f32) (p : Fin M) (c : Fin N) :
    Host.dotGeneral (F := Ideal) D none l r (ix2 p c) = ∑ k : Fin K, l (ix2 p k) * r (ix2 k c) := by
  simp only [Host.dotGeneral]
  rw [Ideal.dotGeneral_apply]
  exact Cert.Lib.PlainDot.sum_rows_cols D hr hs hl0 hl1 hr0 hr1 l r (ix2 p c)

/-- The rectifier as the host spells it — a maximum against a scalar zero spread over the array — of the gathered
    rows plus the transformed attributes is `msg`. -/
theorem relu_msg {N E K D : ℕ} (g : ((⟨2, ![N, D]⟩ : Shape).Idx → EReal) → (⟨2, ![E, D]⟩ : Shape).Idx → EReal)
    (x : (⟨2, ![N, D]⟩ : Shape).Idx → EReal) (a : (⟨2, ![E, K]⟩ : Shape).Idx → EReal) (ew : (⟨2, ![K, D]⟩ : Shape).Idx → EReal)
    (eb : (⟨1, ![D]⟩ : Shape).Idx → EReal) (h0 : (⟨0, ![]⟩ : Shape).BroadcastsInDim ⟨2, ![E, D]⟩ ![]) :
    maximumf (φ := .f32) (F := Ideal) (addf (φ := .f32) (F := Ideal) (g x) (edgeLin a ew eb))
        (broadcastInDim ⟨2, ![E, D]⟩ ![] h0 (constant (F := Ideal) ⟨0, ![]⟩ .f32 0x00000000#32))
      = msg g x a ew eb := by
  funext e
  rw [maximumf_apply, addf_apply, broadcastInDim_scalar_apply, constant_apply, Ideal.ofBits_zero_f32]
  rfl

/-- A kernel-style layer is `layer`. -/
theorem kernel_layer {N E K D H C : ℕ} (g : ((⟨2, ![N, D]⟩ : Shape).Idx → EReal) → (⟨2, ![E, D]⟩ : Shape).Idx → EReal)
    (s : ((⟨2, ![E, D]⟩ : Shape).Idx → EReal) → (⟨2, ![N, D]⟩ : Shape).Idx → EReal)
    (x : (⟨2, ![N, D]⟩ : Shape).Idx → EReal) (a : (⟨2, ![E, K]⟩ : Shape).Idx → EReal) (ew : (⟨2, ![K, D]⟩ : Shape).Idx → EReal)
    (eb : (⟨1, ![D]⟩ : Shape).Idx → EReal) (w1 : (⟨2, ![D, H]⟩ : Shape).Idx → EReal) (b1 : (⟨1, ![H]⟩ : Shape).Idx → EReal)
    (w2 : (⟨2, ![H, C]⟩ : Shape).Idx → EReal) (b2 : (⟨1, ![C]⟩ : Shape).Idx → EReal)
    (hE : (⟨1, ![D]⟩ : Shape).ShapeCasts ⟨2, ![1, D]⟩) (h1 : (⟨1, ![H]⟩ : Shape).ShapeCasts ⟨2, ![1, H]⟩) (h2 : (⟨1, ![C]⟩ : Shape).ShapeCasts ⟨2, ![1, C]⟩)
    (h0 : (⟨0, ![]⟩ : Shape).BroadcastsInDim ⟨2, ![E, D]⟩ ![]) :
    nodeRow x (s (maximumf (φ := .f32) (F := Ideal) (addf (φ := .f32) (F := Ideal) (g x) (edgeRow a ew (shapeCast ⟨2, ![1, D]⟩ eb hE)))
        (broadcastInDim ⟨2, ![E, D]⟩ ![] h0 (constant (F := Ideal) ⟨0, ![]⟩ .f32 0x00000000#32))))
      w1 (shapeCast ⟨2, ![1, H]⟩ b1 h1) w2 (shapeCast ⟨2, ![1, C]⟩ b2 h2)
      = layer g s x a ew eb w1 b1 w2 b2 := by
  rw [nodeRow_cast, edgeRow_cast, relu_msg]
  rfl

/-- A host-style layer is `layer`. -/
theorem host_layer {N E K D H C : ℕ}
    (De : DotDims ⟨2, ![E, K]⟩ ⟨2, ![K, D]⟩ ⟨2, ![E, D]⟩) (Der : De.contr.rank = 1) (Des : De.contr.size ⟨0, by omega⟩ = K)
    (Del0 : ∀ (j : (⟨2, ![E, D]⟩ : Shape).Idx) (q : De.contr.Idx), (De.lhsIdx j q 0).val = (j 0).val)
    (Del1 : ∀ (j : (⟨2, ![E, D]⟩ : Shape).Idx) (q : De.contr.Idx), (De.lhsIdx j q 1).val = (q ⟨0, by omega⟩).val)
    (Der0 : ∀ (j : (⟨2, ![E, D]⟩ : Shape).Idx) (q : De.contr.Idx), (De.rhsIdx j q 0).val = (q ⟨0, by omega⟩).val)
    (Der1 : ∀ (j : (⟨2, ![E, D]⟩ : Shape).Idx) (q : De.contr.Idx), (De.rhsIdx j q 1).val = (j 1).val)
    (D1 : DotDims ⟨2, ![N, D]⟩ ⟨2, ![D, H]⟩ ⟨2, ![N, H]⟩) (D1r : D1.contr.rank = 1) (D1s : D1.contr.size ⟨0, by omega⟩ = D)
    (D1l0 : ∀ (j : (⟨2, ![N, H]⟩ : Shape).Idx) (q : D1.contr.Idx), (D1.lhsIdx j q 0).val = (j 0).val)
    (D1l1 : ∀ (j : (⟨2, ![N, H]⟩ : Shape).Idx) (q : D1.contr.Idx), (D1.lhsIdx j q 1).val = (q ⟨0, by omega⟩).val)
    (D1r0 : ∀ (j : (⟨2, ![N, H]⟩ : Shape).Idx) (q : D1.contr.Idx), (D1.rhsIdx j q 0).val = (q ⟨0, by omega⟩).val)
    (D1r1 : ∀ (j : (⟨2, ![N, H]⟩ : Shape).Idx) (q : D1.contr.Idx), (D1.rhsIdx j q 1).val = (j 1).val)
    (D2 : DotDims ⟨2, ![N, H]⟩ ⟨2, ![H, C]⟩ ⟨2, ![N, C]⟩) (D2r : D2.contr.rank = 1) (D2s : D2.contr.size ⟨0, by omega⟩ = H)
    (D2l0 : ∀ (j : (⟨2, ![N, C]⟩ : Shape).Idx) (q : D2.contr.Idx), (D2.lhsIdx j q 0).val = (j 0).val)
    (D2l1 : ∀ (j : (⟨2, ![N, C]⟩ : Shape).Idx) (q : D2.contr.Idx), (D2.lhsIdx j q 1).val = (q ⟨0, by omega⟩).val)
    (D2r0 : ∀ (j : (⟨2, ![N, C]⟩ : Shape).Idx) (q : D2.contr.Idx), (D2.rhsIdx j q 0).val = (q ⟨0, by omega⟩).val)
    (D2r1 : ∀ (j : (⟨2, ![N, C]⟩ : Shape).Idx) (q : D2.contr.Idx), (D2.rhsIdx j q 1).val = (j 1).val)
    (g : FVec Ideal ⟨2, ![N, D]⟩ .f32 → FVec Ideal ⟨2, ![E, D]⟩ .f32)
    (s : FVec Ideal ⟨2, ![E, D]⟩ .f32 → FVec Ideal ⟨2, ![N, D]⟩ .f32)
    (x : FVec Ideal ⟨2, ![N, D]⟩ .f32) (a : FVec Ideal ⟨2, ![E, K]⟩ .f32) (ew : FVec Ideal ⟨2, ![K, D]⟩ .f32)
    (eb : FVec Ideal ⟨1, ![D]⟩ .f32) (w1 : FVec Ideal ⟨2, ![D, H]⟩ .f32) (b1 : FVec Ideal ⟨1, ![H]⟩ .f32)
    (w2 : FVec Ideal ⟨2, ![H, C]⟩ .f32) (b2 : FVec Ideal ⟨1, ![C]⟩ .f32)
    (hD : D ≠ 1) (hH : H ≠ 1) (hC : C ≠ 1)
    (e1 : (⟨1, ![D]⟩ : Shape).BroadcastsInDim ⟨2, ![1, D]⟩ ![1]) (e2 : (⟨2, ![1, D]⟩ : Shape).BroadcastsInDim ⟨2, ![E, D]⟩ ![0, 1])
    (z0 : (⟨0, ![]⟩ : Shape).BroadcastsInDim ⟨2, ![E, D]⟩ ![]) (o0 : (⟨0, ![]⟩ : Shape).BroadcastsInDim ⟨2, ![N, D]⟩ ![])
    (p1 : (⟨1, ![H]⟩ : Shape).BroadcastsInDim ⟨2, ![1, H]⟩ ![1]) (p2 : (⟨2, ![1, H]⟩ : Shape).BroadcastsInDim ⟨2, ![N, H]⟩ ![0, 1])
    (z1 : (⟨0, ![]⟩ : Shape).BroadcastsInDim ⟨2, ![N, H]⟩ ![])
    (q1 : (⟨1, ![C]⟩ : Shape).BroadcastsInDim ⟨2, ![1, C]⟩ ![1]) (q2 : (⟨2, ![1, C]⟩ : Shape).BroadcastsInDim ⟨2, ![N, C]⟩ ![0, 1]) :
    addf (φ := .f32) (F := Ideal) (Host.dotGeneral (F := Ideal) D2 none
        (maximumf (φ := .f32) (F := Ideal) (addf (φ := .f32) (F := Ideal) (Host.dotGeneral (F := Ideal) D1 none
            (addf (φ := .f32) (F := Ideal) (mulf (φ := .f32) (F := Ideal) (broadcastInDim ⟨2, ![N, D]⟩ ![] o0 (constant (F := Ideal) ⟨0, ![]⟩ .f32 0x3F800000#32)) x)
              (s (maximumf (φ := .f32) (F := Ideal) (addf (φ := .f32) (F := Ideal) (addf (φ := .f32) (F := Ideal) (g x) (Host.dotGeneral (F := Ideal) De none a ew))
                  (broadcastInDim ⟨2, ![E, D]⟩ ![0, 1] e2 (broadcastInDim ⟨2, ![1, D]⟩ ![1] e1 eb)))
                (broadcastInDim ⟨2, ![E, D]⟩ ![] z0 (constant (F := Ideal) ⟨0, ![]⟩ .f32 0x00000000#32)))))
            w1) (broadcastInDim ⟨2, ![N, H]⟩ ![0, 1] p2 (broadcastInDim ⟨2, ![1, H]⟩ ![1] p1 b1)))
          (broadcastInDim ⟨2, ![N, H]⟩ ![] z1 (constant (F := Ideal) ⟨0, ![]⟩ .f32 0x00000000#32)))
        w2) (broadcastInDim ⟨2, ![N, C]⟩ ![0, 1] q2 (broadcastInDim ⟨2, ![1, C]⟩ ![1] q1 b2))
      = layer g s x a ew eb w1 b1 w2 b2 := by
  -- the messages: the bias joins the product before or after the gathered row
  have hm : maximumf (φ := .f32) (F := Ideal) (addf (φ := .f32) (F := Ideal) (addf (φ := .f32) (F := Ideal) (g x) (Host.dotGeneral (F := Ideal) De none a ew))
        (broadcastInDim ⟨2, ![E, D]⟩ ![0, 1] e2 (broadcastInDim ⟨2, ![1, D]⟩ ![1] e1 eb)))
      (broadcastInDim ⟨2, ![E, D]⟩ ![] z0 (constant (F := Ideal) ⟨0, ![]⟩ .f32 0x00000000#32)) = msg g x a ew eb := by
    funext e
    obtain ⟨p, q, rfl⟩ : ∃ (p : Fin E) (q : Fin D), e = ix2 p q := ⟨e 0, e 1, eq_ix2 e⟩
    rw [maximumf_apply, addf_apply, addf_apply, broadcastInDim_scalar_apply, constant_apply, Ideal.ofBits_zero_f32,
      Cert.Lib.DenseLayer.bias_apply hD eb e1 e2 p q]
    rw [host_dot_apply De Der Des Del0 Del1 Der0 Der1 a ew p q, add_assoc]
    rfl
  rw [hm]
  funext i
  obtain ⟨p, q, rfl⟩ : ∃ (p : Fin N) (q : Fin C), i = ix2 p q := ⟨i 0, i 1, eq_ix2 i⟩
  show _ = (∑ j : Fin H, max ((∑ k : Fin D, (x (ix2 p k) + s (msg g x a ew eb) (ix2 p k)) * w1 (ix2 k j)) + b1 (ix1 j)) 0
      * w2 (ix2 j q)) + b2 (ix1 q)
  rw [addf_apply, Cert.Lib.DenseLayer.bias_apply hC b2 q1 q2 p q, host_dot_apply D2 D2r D2s D2l0 D2l1 D2r0 D2r1 _ w2 p q]
  refine congrArg (· + b2 (ix1 q)) (Finset.sum_congr rfl fun j _ => congrArg (· * w2 (ix2 j q)) ?_)
  rw [maximumf_apply, addf_apply, broadcastInDim_scalar_apply, constant_apply, Ideal.ofBits_zero_f32,
    Cert.Lib.DenseLayer.bias_apply hH b1 p1 p2 p j, host_dot_apply D1 D1r D1s D1l0 D1l1 D1r0 D1r1 _ w1 p j]
  refine congrArg (fun t => max (t + b1 (ix1 j)) 0) (Finset.sum_congr rfl fun k _ => congrArg (· * w1 (ix2 k j)) ?_)
  rw [addf_apply, mulf_apply, broadcastInDim_scalar_apply, constant_apply, Ideal.ofBits_one_f32, one_mul]

end Cert.Lib.Gine

end
-- ==== Proof.KernelValue.lean ====
/-
  The idealized kernel's result is the second message-passing layer applied to the first.

  Each region's function is the generic one with its biases as one-row arrays, and the host operations between the
  regions are the gather, the addition, the rectifier and the scatter-add of a kernel-style layer; so the term the
  result buffer ends at is `Cert.Lib.Gine.layer` of `Cert.Lib.Gine.layer`, with the gather and the scatter-add carried as
  functions of the edge list.
-/
import proofs.«156893_j39032662786178_2_alg».proof.Proof.KernelFold
import proofs.«156893_j39032662786178_2_alg».proof.Proof.LibGineBridge

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ)

/-- The first layer's gather: each edge reads its source row (negative indices wrapped once). -/
def g1 (c : Dev nD) : FVec Ideal S50000x128 .f32 → FVec Ideal S800000x128 .f32 := fun x => Host.gather gather_S50000x128_S800000x1_S800000x128_1_0_n_n_0_1_1128 x (broadcastInDim S800000x1 ![0] bcast_S800000_S800000x1_0 (select (cmpi CmpIPredicate.slt (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast S800000 (extractStridedSlice S1x800000 ![0, 0] (m ((c : Thread nD τ).loc main_arg1)) slices_S2x800000_S1x800000_0_0) shapeCasts_S1x800000_S800000)))
/-- The first layer's scatter-add into zeros at each edge's target row. -/
def s1 (c : Dev nD) : FVec Ideal S800000x128 .f32 → FVec Ideal S50000x128 .f32 := fun u => Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] (m ((c : Thread nD τ).loc main_arg1)) slices_S2x800000_S1x800000_1_0) shapeCasts_S1x800000_S800000)) u
/-- The second layer's gather. -/
def g2 (c : Dev nD) : FVec Ideal S50000x256 .f32 → FVec Ideal S800000x256 .f32 := fun x => Host.gather gather_S50000x256_S800000x1_S800000x256_1_0_n_n_0_1_1256 x (broadcastInDim S800000x1 ![0] bcast_S800000_S800000x1_0 (select (cmpi CmpIPredicate.slt (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast S800000 (extractStridedSlice S1x800000 ![0, 0] (m ((c : Thread nD τ).loc main_arg1)) slices_S2x800000_S1x800000_0_0) shapeCasts_S1x800000_S800000)))
/-- The second layer's scatter-add. -/
def s2 (c : Dev nD) : FVec Ideal S800000x256 .f32 → FVec Ideal S50000x256 .f32 := fun u => Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast S800000 (extractStridedSlice S1x800000 ![1, 0] (m ((c : Thread nD τ).loc main_arg1)) slices_S2x800000_S1x800000_1_0) shapeCasts_S1x800000_S800000)) u

/-- The first layer's node features are `layer` of the launch arrays. -/
theorem H1_eq (c : Dev nD) : H1 m c = Cert.Lib.Gine.layer (g1 m c) (s1 m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold H1 AGG1 T1
  exact Cert.Lib.Gine.kernel_layer (g1 m c) (s1 m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    shapeCasts_S128_S1x128 shapeCasts_S256_S1x256 shapeCasts_S256_S1x256 bcast_S_S800000x128

/-- The result is `layer` of the first layer's features. -/
theorem OUT_eq (c : Dev nD) : OUT m c = Cert.Lib.Gine.layer (g2 m c) (s2 m c)
    (Cert.Lib.Gine.layer (g1 m c) (s1 m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [← H1_eq]
  unfold OUT AGG2 T2
  exact Cert.Lib.Gine.kernel_layer (g2 m c) (s2 m c) (H1 m c) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    shapeCasts_S256_S1x256 shapeCasts_S256_S1x256 shapeCasts_S256_S1x256 bcast_S_S800000x256

end Cert.KernelIdeal.Fold

end
-- ==== Proof.RefValue.lean ====
/-
  The idealized reference's result is the second message-passing layer applied to the first.

  The reference's stages, unfolded one layer at a time, are a host-style layer: the gathered rows plus the product,
  then the bias; the rectifier; the scatter-add into zeros; one times the features plus the aggregate; two dense
  layers with a rectifier between. The first layer's result feeds the second whole, so it stays folded there.
-/
import proofs.«156893_j39032662786178_2_alg».proof.Proof.Gen.ReferenceIdeal.Read
import proofs.«156893_j39032662786178_2_alg».proof.Proof.LibGineBridge

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

variable (x0 : FVec Ideal S50000x128 .f32) (x1 : IVec S2x800000 32) (x2 : FVec Ideal S800000x16 .f32)
  (x3 : FVec Ideal S16x128 .f32) (x4 : FVec Ideal S128 .f32) (x5 : FVec Ideal S128x256 .f32) (x6 : FVec Ideal S256 .f32)
  (x7 : FVec Ideal S256x256 .f32) (x8 : FVec Ideal S256 .f32) (x9 : FVec Ideal S16x256 .f32) (x10 : FVec Ideal S256 .f32)
  (x11 : FVec Ideal S256x256 .f32) (x12 : FVec Ideal S256 .f32) (x13 : FVec Ideal S256x256 .f32) (x14 : FVec Ideal S256 .f32)

/-- The first layer's gather: each edge reads its source row. -/
def g1 : FVec Ideal S50000x128 .f32 → FVec Ideal S800000x128 .f32 :=
  fun x => Host.gather gather_S50000x128_S800000x1_S800000x128_1_0_n_n_0_1_1128 x (val_main_v9 (F := Ideal) x1)
/-- The first layer's scatter-add into zeros at each edge's target row. -/
def s1 : FVec Ideal S800000x128 .f32 → FVec Ideal S50000x128 .f32 :=
  fun u => Host.scatterAdd (F := Ideal) scatter_S50000x128_S800000x1_S800000x128_1_0_0_1 (val_main_v17 (F := Ideal)) (val_main_v18 (F := Ideal) x1) u
/-- The second layer's gather. -/
def g2 : FVec Ideal S50000x256 .f32 → FVec Ideal S800000x256 .f32 :=
  fun x => Host.gather gather_S50000x256_S800000x1_S800000x256_1_0_n_n_0_1_1256 x (val_main_v37 (F := Ideal) x1)
/-- The second layer's scatter-add. -/
def s2 : FVec Ideal S800000x256 .f32 → FVec Ideal S50000x256 .f32 :=
  fun u => Host.scatterAdd (F := Ideal) scatter_S50000x256_S800000x1_S800000x256_1_0_0_1 (val_main_v45 (F := Ideal)) (val_main_v46 (F := Ideal) x1) u

/-- The first layer's stages are a host-style layer. -/
theorem layer1 : val_main_v31 (F := Ideal) x0 x1 x2 x3 x4 x5 x6 x7 x8 = Cert.Lib.Gine.layer (g1 x1) (s1 x1) x0 x2 x3 x4 x5 x6 x7 x8 := by
  unfold val_main_v31 val_main_v28 val_main_v30 val_main_v29 val_main_v27 val_main_call1_v0 val_main_call1_cst val_main_v26
    val_main_v25 val_main_v24 val_main_v23 val_main_v22 val_main_v21 val_main_v20 val_main_cst_1 val_main_v19 val_main_v16
    val_main_call0_v0 val_main_call0_cst val_main_v15 val_main_v14 val_main_v13 val_main_v12 val_main_v10 val_main_v11
  exact Cert.Lib.Gine.host_layer
    dot_S800000x16_S16x128_S800000x128_1_0_0_1_n_n rfl rfl (lhs_main_v11_0) (lhs_main_v11_1) (rhs_main_v11_0) (rhs_main_v11_1)
    dot_S50000x128_S128x256_S50000x256_1_0_0_1_n_n rfl rfl (lhs_main_v23_0) (lhs_main_v23_1) (rhs_main_v23_0) (rhs_main_v23_1)
    dot_S50000x256_S256x256_S50000x256_1_0_0_1_n_n rfl rfl (lhs_main_v28_0) (lhs_main_v28_1) (rhs_main_v28_0) (rhs_main_v28_1)
    (g1 x1) (s1 x1) x0 x2 x3 x4 x5 x6 x7 x8 (by decide) (by decide) (by decide)
    bcast_S128_S1x128_1 bcast_S1x128_S800000x128_0_1 bcast_S_S800000x128 bcast_S_S50000x128
    bcast_S256_S1x256_1 bcast_S1x256_S50000x256_0_1 bcast_S_S50000x256
    bcast_S256_S1x256_1 bcast_S1x256_S50000x256_0_1

/-- The second layer's stages are a host-style layer of the first layer's result. -/
theorem layer2 : val_main_v59 (F := Ideal) x0 x1 x2 x3 x4 x5 x6 x7 x8 x9 x10 x11 x12 x13 x14
    = Cert.Lib.Gine.layer (g2 x1) (s2 x1) (val_main_v31 (F := Ideal) x0 x1 x2 x3 x4 x5 x6 x7 x8) x2 x9 x10 x11 x12 x13 x14 := by
  unfold val_main_v59 val_main_v56 val_main_v58 val_main_v57 val_main_v55 val_main_call3_v0 val_main_call3_cst val_main_v54
    val_main_v53 val_main_v52 val_main_v51 val_main_v50 val_main_v49 val_main_v48 val_main_cst_5 val_main_v47 val_main_v44
    val_main_call2_v0 val_main_call2_cst val_main_v43 val_main_v42 val_main_v41 val_main_v40 val_main_v38 val_main_v39
  exact Cert.Lib.Gine.host_layer
    dot_S800000x16_S16x256_S800000x256_1_0_0_1_n_n rfl rfl (lhs_main_v39_0) (lhs_main_v39_1) (rhs_main_v39_0) (rhs_main_v39_1)
    dot_S50000x256_S256x256_S50000x256_1_0_0_1_n_n rfl rfl (lhs_main_v51_0) (lhs_main_v51_1) (rhs_main_v51_0) (rhs_main_v51_1)
    dot_S50000x256_S256x256_S50000x256_1_0_0_1_n_n rfl rfl (lhs_main_v56_0) (lhs_main_v56_1) (rhs_main_v56_0) (rhs_main_v56_1)
    (g2 x1) (s2 x1) (val_main_v31 (F := Ideal) x0 x1 x2 x3 x4 x5 x6 x7 x8) x2 x9 x10 x11 x12 x13 x14 (by decide) (by decide) (by decide)
    bcast_S256_S1x256_1 bcast_S1x256_S800000x256_0_1 bcast_S_S800000x256 bcast_S_S50000x256
    bcast_S256_S1x256_1 bcast_S1x256_S50000x256_0_1 bcast_S_S50000x256
    bcast_S256_S1x256_1 bcast_S1x256_S50000x256_0_1

/-- The reference's result: the second layer of the first. -/
theorem result : val_main_v59 (F := Ideal) x0 x1 x2 x3 x4 x5 x6 x7 x8 x9 x10 x11 x12 x13 x14
    = Cert.Lib.Gine.layer (g2 x1) (s2 x1) (Cert.Lib.Gine.layer (g1 x1) (s1 x1) x0 x2 x3 x4 x5 x6 x7 x8) x2 x9 x10 x11 x12 x13 x14 := by
  rw [layer2, layer1]

end Cert.ReferenceIdeal.RefValue

end
-- ==== Proof.lean ====
/-
  A two-layer graph network with edge features (gather the source rows, add a linear transform of the edge
  attributes, rectify, sum into the target rows, then a two-layer perceptron of the node's own features plus that sum),
  computed by four kernel regions among host operations, against the same network written with host operations only.

  The three programs run: the two kernel programs by their generated frames, the reference by its generated run.
  The idealization rewrote nothing, so it is preserved trivially. At the exact values both idealized programs end
  with the second layer applied to the first, as ONE function of the fifteen argument arrays: the kernel's side is
  read off its run through the four regions (each region's blocks tile its result with the rows of one function)
  and the host operations between them; the reference's side is its generated stages. The two spellings differ in
  how two additions are associated and in a multiplication by one, which are laws of the extended reals at the
  infinities too, so the precondition is never opened; the gather and the scatter-add are the same functions of the
  edge list on both sides and are never opened either.
-/
import proofs.«156893_j39032662786178_2_alg».proof.Defs
import proofs.«156893_j39032662786178_2_alg».proof.Proof.Gen.Kernel
import proofs.«156893_j39032662786178_2_alg».proof.Proof.Gen.Kernel.Skeleton
import proofs.«156893_j39032662786178_2_alg».proof.Proof.Gen.Kernel.Launch
import proofs.«156893_j39032662786178_2_alg».proof.Proof.Gen.Kernel.Points
import proofs.«156893_j39032662786178_2_alg».proof.Proof.Gen.Kernel.Frame
import proofs.«156893_j39032662786178_2_alg».proof.Proof.Gen.KernelIdeal
import proofs.«156893_j39032662786178_2_alg».proof.Proof.Gen.KernelIdeal.Skeleton
import proofs.«156893_j39032662786178_2_alg».proof.Proof.Gen.KernelIdeal.Launch
import proofs.«156893_j39032662786178_2_alg».proof.Proof.Gen.KernelIdeal.Points
import proofs.«156893_j39032662786178_2_alg».proof.Proof.Gen.KernelIdeal.Frame
import proofs.«156893_j39032662786178_2_alg».proof.Proof.Gen.ReferenceIdeal
import proofs.«156893_j39032662786178_2_alg».proof.Proof.Gen.ReferenceIdeal.Run
import proofs.«156893_j39032662786178_2_alg».proof.Proof.Gen.ReferenceIdeal.Read
import proofs.«156893_j39032662786178_2_alg».proof.Proof.Gen.Pre_finite_inputs
import proofs.«156893_j39032662786178_2_alg».proof.Proof.KernelRun
import proofs.«156893_j39032662786178_2_alg».proof.Proof.KernelValue
import proofs.«156893_j39032662786178_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two results are one function of arrays that agree: both are the second layer applied to the first, with
    the same gather and scatter-add of the same edge list. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v59 m' c = Cert.KernelIdeal.Fold.OUT m c := by
  rw [Cert.ReferenceIdeal.Read.val_main_v59_eq, Cert.ReferenceIdeal.RefValue.result, Cert.KernelIdeal.Fold.OUT_eq,
    e0, e1, e2, e3, e4, e5, e6, e7, e8, e9, e10, e11, e12, e13, e14]
  have hg1 : Cert.ReferenceIdeal.RefValue.g1 (m ((c.tc : Thread Cert.KernelIdeal.nD Cert.KernelIdeal.τ).loc Cert.KernelIdeal.main_arg1)) = Cert.KernelIdeal.Fold.g1 m c := rfl
  have hs1 : Cert.ReferenceIdeal.RefValue.s1 (m ((c.tc : Thread Cert.KernelIdeal.nD Cert.KernelIdeal.τ).loc Cert.KernelIdeal.main_arg1)) = Cert.KernelIdeal.Fold.s1 m c := rfl
  have hg2 : Cert.ReferenceIdeal.RefValue.g2 (m ((c.tc : Thread Cert.KernelIdeal.nD Cert.KernelIdeal.τ).loc Cert.KernelIdeal.main_arg1)) = Cert.KernelIdeal.Fold.g2 m c := rfl
  have hs2 : Cert.ReferenceIdeal.RefValue.s2 (m ((c.tc : Thread Cert.KernelIdeal.nD Cert.KernelIdeal.τ).loc Cert.KernelIdeal.main_arg1)) = Cert.KernelIdeal.Fold.s2 m c := rfl
  rw [hg1, hs1, hg2, hs2]

theorem algebraic : Cert.algebraic_KernelIdeal_ReferenceIdeal := by
  intro m ρ m' ρ' _ hagree
  refine ⟨fun c => Cert.KernelIdeal.Fold.OUT m c, ?_, ?_⟩
  · exact (θ_run Cert.KernelIdeal.defs _ _).mono
      (fun _ h c => ⟨(h c).1.trans (Cert.KernelIdeal.Fold.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    exact result_eq m m' c e0 e1 e2 e3 e4 e5 e6 e7 e8 e9 e10 e11 e12 e13 e14

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
